-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x1000x4096 : Shape := ⟨3, ![10, 1000, 4096]⟩
abbrev S4x1024x4096 : Shape := ⟨3, ![4, 1024, 4096]⟩
abbrev S4x1024 : Shape := ⟨2, ![4, 1024]⟩
abbrev S_ : Shape := ⟨0, ![]⟩

class Facts : Prop where
  bcast_S_S10x1000x4096 : S_.BroadcastsInDim S10x1000x4096 (![] : Fin 0 → Fin S10x1000x4096.rank)
  reducesTo_S10x1000x4096_S_d0_1_2 : S10x1000x4096.ReducesTo [0, 1, 2] S_
  h_S_ : 0 < S_.numel
  bcast_S_S4x1024x4096 : S_.BroadcastsInDim S4x1024x4096 (![] : Fin 0 → Fin S4x1024x4096.rank)
  reducesTo_S4x1024x4096_S_d0_1_2 : S4x1024x4096.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x4096 .f32) (main_arg6 : FVec F S4x1024 .f32) (main_v13 : IVec S_ 1) (main_v16 : IVec S4x1024x4096 1) : IVec S_ 1 :=
  let main_c_5 : IVec S_ 1 := constantI S_ 1 1#1
  let main_v17 : IVec S_ 1 := (fun x v => Host.reduce IntOp.andi x v reducesTo_S4x1024x4096_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x4096 .f32 := Host.absf main_arg5
  let main_cst_8 : FVec F S_ .f32 := constant S_ .f32 0x7F800000#32
  let main_v25 : FVec F S4x1024x4096 .f32 := broadcastInDim S4x1024x4096 ![] bcast_S_S4x1024x4096 main_cst_8
  let main_v26 : IVec S4x1024x4096 1 := cmpf .olt main_v24 main_v25
  let main_c_9 : IVec S_ 1 := constantI S_ 1 1#1
  let main_v27 : IVec S_ 1 := (fun x v => Host.reduce IntOp.andi x v reducesTo_S4x1024x4096_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S10x1000x4096 .f32) (main_arg1 : FVec F S4x1024x4096 .f32) (main_arg2 : FVec F S4x1024 .f32) (main_arg3 : FVec F S4x1024x4096 .f32) (main_arg4 : FVec F S4x1024 .f32) (main_arg5 : FVec F S4x1024x4096 .f32) (main_arg6 : FVec F S4x1024 .f32) : IVec S_ 1 :=
  let main_v0 : FVec F S10x1000x4096 .f32 := Host.absf main_arg0
  let main_cst : FVec F S_ .f32 := constant S_ .f32 0x7F800000#32
  let main_v1 : FVec F S10x1000x4096 .f32 := broadcastInDim S10x1000x4096 ![] bcast_S_S10x1000x4096 main_cst
  let main_v2 : IVec S10x1000x4096 1 := cmpf .olt main_v0 main_v1
  let main_c : IVec S_ 1 := constantI S_ 1 1#1
  let main_v3 : IVec S_ 1 := (fun x v => Host.reduce IntOp.andi x v reducesTo_S10x1000x4096_S_d0_1_2 h_S_) main_v2 main_c
  let main_v4 : FVec F S4x1024x4096 .f32 := Host.absf main_arg1
  let main_cst_0 : FVec F S_ .f32 := constant S_ .f32 0x7F800000#32
  let main_v5 : FVec F S4x1024x4096 .f32 := broadcastInDim S4x1024x4096 ![] bcast_S_S4x1024x4096 main_cst_0
  let main_v6 : IVec S4x1024x4096 1 := cmpf .olt main_v4 main_v5
  let main_c_1 : IVec S_ 1 := constantI S_ 1 1#1
  let main_v7 : IVec S_ 1 := (fun x v => Host.reduce IntOp.andi x v reducesTo_S4x1024x4096_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024x4096 .f32 := Host.absf main_arg3
  let main_cst_4 : FVec F S_ .f32 := constant S_ .f32 0x7F800000#32
  let main_v15 : FVec F S4x1024x4096 .f32 := broadcastInDim S4x1024x4096 ![] bcast_S_S4x1024x4096 main_cst_4
  let main_v16 : IVec S4x1024x4096 1 := cmpf .olt main_v14 main_v15
  fn_part1 (F := F) main_arg4 main_arg5 main_arg6 main_v13 main_v16
-- ==== Kernel.lean ====
abbrev S10x1000x4096 : Shape := ⟨3, ![10, 1000, 4096]⟩
abbrev S4x1024x4096 : Shape := ⟨3, ![4, 1024, 4096]⟩
abbrev S4x1024 : Shape := ⟨2, ![4, 1024]⟩
abbrev S4x1x1024 : Shape := ⟨3, ![4, 1, 1024]⟩
abbrev S10x4x1000x1024 : Shape := ⟨4, ![10, 4, 1000, 1024]⟩
abbrev S1x200x4096 : Shape := ⟨3, ![1, 200, 4096]⟩
abbrev S1x1024x4096 : Shape := ⟨3, ![1, 1024, 4096]⟩
abbrev S1x1x1024 : Shape := ⟨3, ![1, 1, 1024]⟩
abbrev S1x1x200x1024 : Shape := ⟨4, ![1, 1, 200, 1024]⟩
abbrev S200x4096 : Shape := ⟨2, ![200, 4096]⟩
abbrev S1024x4096 : Shape := ⟨2, ![1024, 4096]⟩
abbrev S200x1024 : Shape := ⟨2, ![200, 1024]⟩
abbrev S1x1024 : Shape := ⟨2, ![1, 1024]⟩
abbrev S1x1x1000x1024 : Shape := ⟨4, ![1, 1, 1000, 1024]⟩
abbrev S1x200x1024 : Shape := ⟨3, ![1, 200, 1024]⟩
abbrev S200x1000 : Shape := ⟨2, ![200, 1000]⟩
abbrev S1000x1024 : Shape := ⟨2, ![1000, 1024]⟩
abbrev S200 : Shape := ⟨1, ![200]⟩
abbrev S200x1 : Shape := ⟨2, ![200, 1]⟩

abbrev nBuf : Space → Nat
  | .hbm => 18
  | .vmem => 32
  | .smem => 0
  | _ => 0

abbrev bufTy : (tb : Table) → Fin (tcTables nBuf tb) → BufTy
  | .hbm, ⟨0, _⟩ => ⟨S10x1000x4096, .f32⟩
  | .hbm, ⟨1, _⟩ => ⟨S4x1024x4096, .f32⟩
  | .hbm, ⟨2, _⟩ => ⟨S4x1024, .f32⟩
  | .hbm, ⟨3, _⟩ => ⟨S4x1024x4096, .f32⟩
  | .hbm, ⟨4, _⟩ => ⟨S4x1024, .f32⟩
  | .hbm, ⟨5, _⟩ => ⟨S4x1024x4096, .f32⟩
  | .hbm, ⟨6, _⟩ => ⟨S4x1024, .f32⟩
  | .hbm, ⟨7, _⟩ => ⟨S10x1000x4096, .bf16⟩
  | .hbm, ⟨8, _⟩ => ⟨S4x1024x4096, .bf16⟩
  | .hbm, ⟨9, _⟩ => ⟨S4x1024x4096, .bf16⟩
  | .hbm, ⟨10, _⟩ => ⟨S4x1024x4096, .bf16⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S10x4x1000x1024, .bf16⟩
  | .hbm, ⟨15, _⟩ => ⟨S10x4x1000x1024, .bf16⟩
  | .hbm, ⟨16, _⟩ => ⟨S10x4x1000x1024, .bf16⟩
  | .hbm, ⟨17, _⟩ => ⟨S10x1000x4096, .f32⟩
  | .local _ .vmem, ⟨0, _⟩ => ⟨S1x200x4096, .bf16⟩
  | .local _ .vmem, ⟨1, _⟩ => ⟨S1x200x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x200x1024, .bf16⟩
  | .local _ .vmem, ⟨7, _⟩ => ⟨S1x1x200x1024, .bf16⟩
  | .local _ .vmem, ⟨8, _⟩ => ⟨S1x200x4096, .bf16⟩
  | .local _ .vmem, ⟨9, _⟩ => ⟨S1x200x4096, .bf16⟩
  | .local _ .vmem, ⟨10, _⟩ => ⟨S1x1024x4096, .bf16⟩
  | .local _ .vmem, ⟨11, _⟩ => ⟨S1x1024x4096, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x200x1024, .bf16⟩
  | .local _ .vmem, ⟨15, _⟩ => ⟨S1x1x200x1024, .bf16⟩
  | .local _ .vmem, ⟨16, _⟩ => ⟨S1x200x4096, .bf16⟩
  | .local _ .vmem, ⟨17, _⟩ => ⟨S1x200x4096, .bf16⟩
  | .local _ .vmem, ⟨18, _⟩ => ⟨S1x1024x4096, .bf16⟩
  | .local _ .vmem, ⟨19, _⟩ => ⟨S1x1024x4096, .bf16⟩
  | .local _ .vmem, ⟨20, _⟩ => ⟨S1x1x1024, .f32⟩
  | .local _ .vmem, ⟨21, _⟩ => ⟨S1x1x1024, .f32⟩
  | .local _ .vmem, ⟨22, _⟩ => ⟨S1x1x200x1024, .bf16⟩
  | .local _ .vmem, ⟨23, _⟩ => ⟨S1x1x200x1024, .bf16⟩
  | .local _ .vmem, ⟨24, _⟩ => ⟨S1x1x200x1024, .bf16⟩
  | .local _ .vmem, ⟨25, _⟩ => ⟨S1x1x200x1024, .bf16⟩
  | .local _ .vmem, ⟨26, _⟩ => ⟨S1x1x1000x1024, .bf16⟩
  | .local _ .vmem, ⟨27, _⟩ => ⟨S1x1x1000x1024, .bf16⟩
  | .local _ .vmem, ⟨28, _⟩ => ⟨S1x1x1000x1024, .bf16⟩
  | .local _ .vmem, ⟨29, _⟩ => ⟨S1x1x1000x1024, .bf16⟩
  | .local _ .vmem, ⟨30, _⟩ => ⟨S1x200x1024, .f32⟩
  | .local _ .vmem, ⟨31, _⟩ => ⟨S1x200x1024, .f32⟩
  | _, _ => ⟨S10x1000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨3, ![4, 10, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x200x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x200x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![4, 10, 5], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage1_0 : Fin 2 → Memref sig .tc .vmem S1x200x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x200x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![4, 10, 5], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage2_0 : Fin 2 → Memref sig .tc .vmem S1x200x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1x1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1x200x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![10, 4, 5], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x1x200x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x1000x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x1000x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x200x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

class Facts₀ : Prop where
  bitsLt_bf16_f32 : FTy.bits .bf16 < FTy.bits .f32
  shapeCasts_S4x1024_S4x1x1024 : S4x1024.ShapeCasts S4x1x1024
  inb_S1x200x4096_S1x200x4096_0_0_0 : ∀ a, (![0, 0, 0] : Fin 3 → Nat) a + S1x200x4096.size a ≤ S1x200x4096.size a
  h_S1x200x4096 : 0 < S1x200x4096.numel
  shapeCasts_S1x200x4096_S200x4096 : S1x200x4096.ShapeCasts S200x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S200x1024 : S1x1024.Broadcasts S200x1024
  inb_S1x1x200x1024_S1x1x200x1024_0_0_0_0 : ∀ a, (![0, 0, 0, 0] : Fin 4 → Nat) a + S1x1x200x1024.size a ≤ S1x1x200x1024.size a
  h_S1x1x200x1024 : 0 < S1x1x200x1024.numel
  shapeCasts_S1x1x200x1024_S200x1024 : S1x1x200x1024.ShapeCasts S200x1024
  shapeCasts_S200x1024_S1x1x200x1024 : S200x1024.ShapeCasts S1x1x200x1024
  packedbf16_S1x1x200x1024_S1x1x200x1024_0_0_0_0 : (Rect.unit (s := S1x1x200x1024) ![0, 0, 0, 0] S1x1x200x1024.size inb_S1x1x200x1024_S1x1x200x1024_0_0_0_0).PackedRows (EltTy.packing .bf16)
  iota_S200x1000_d0_w32 : S200x1000.Iotas .tc 32 [0]
  iota_S200x1000_d1_w32 : S200x1000.Iotas .tc 32 [1]
  inb_S1x1x1000x1024_S1x1x1000x1024_0_0_0_0 : ∀ a, (![0, 0, 0, 0] : Fin 4 → Nat) a + S1x1x1000x1024.size a ≤ S1x1x1000x1024.size a
  h_S1x1x1000x1024 : 0 < S1x1x1000x1024.numel
  shapeCasts_S1x1x1000x1024_S1000x1024 : S1x1x1000x1024.ShapeCasts S1000x1024
  reduces_S200x1000_S200 : S200x1000.Reduces [1] S200
  shapeCasts_S200_S200x1 : S200.ShapeCasts S200x1
  broadcasts_S200x1_S200x1000 : S200x1.Broadcasts S200x1000
  inb_S1x200x1024_S1x200x1024_0_0_0 : ∀ a, (![0, 0, 0] : Fin 3 → Nat) a + S1x200x1024.size a ≤ S1x200x1024.size a
  h_S1x200x1024 : 0 < S1x200x1024.numel
  shapeCasts_S1x200x1024_S200x1024 : S1x200x1024.ShapeCasts S200x1024
  shapeCasts_S200x1024_S1x200x1024 : S200x1024.ShapeCasts S1x200x1024
  dot_S200x4096_S1024x4096_S200x1024_1_1_0_0_n_n_wf : DotDims.WF S200x4096 S1024x4096 S200x1024 [1] [1] [0] [0] [] []
  dot_S200x1024_S1000x1024_S200x1000_1_1_0_0_n_n_wf : DotDims.WF S200x1024 S1000x1024 S200x1000 [1] [1] [0] [0] [] []
  dot_S200x1000_S1000x1024_S200x1024_1_0_0_1_n_n_wf : DotDims.WF S200x1000 S1000x1024 S200x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x4096.size a ≤ S10x1000x4096.size a
  hwx0_0 : ∀ i : grid0.Coords, EltTy.bits .bf16 = 32 ∨ (Rect.block (s := S10x1000x4096) S1x200x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S4x1024x4096.size a
  hwx0_1 : ∀ i : grid0.Coords, EltTy.bits .bf16 = 32 ∨ (Rect.block (s := S4x1024x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x1024.size a
  hwx0_2 : ∀ i : grid0.Coords, EltTy.bits .f32 = 32 ∨ (Rect.block (s := S4x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x200x1024.size a ≤ S10x4x1000x1024.size a
  hwx0_3 : ∀ i : grid0.Coords, EltTy.bits .bf16 = 32 ∨ (Rect.block (s := S10x4x1000x1024) S1x1x200x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x200x4096.size a ≤ S10x1000x4096.size a
  hwx1_0 : ∀ i : grid1.Coords, EltTy.bits .bf16 = 32 ∨ (Rect.block (s := S10x1000x4096) S1x200x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x4096.size a ≤ S4x1024x4096.size a
  hwx1_1 : ∀ i : grid1.Coords, EltTy.bits .bf16 = 32 ∨ (Rect.block (s := S4x1024x4096) S1x1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S4x1x1024.size a
  hwx1_2 : ∀ i : grid1.Coords, EltTy.bits .f32 = 32 ∨ (Rect.block (s := S4x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x200x1024.size a ≤ S10x4x1000x1024.size a
  hwx1_3 : ∀ i : grid1.Coords, EltTy.bits .bf16 = 32 ∨ (Rect.block (s := S10x4x1000x1024) S1x1x200x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x200x4096.size a ≤ S10x1000x4096.size a
  hwx2_0 : ∀ i : grid2.Coords, EltTy.bits .bf16 = 32 ∨ (Rect.block (s := S10x1000x4096) S1x200x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x4096.size a ≤ S4x1024x4096.size a
  hwx2_1 : ∀ i : grid2.Coords, EltTy.bits .bf16 = 32 ∨ (Rect.block (s := S4x1024x4096) S1x1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024.size a ≤ S4x1x1024.size a
  hwx2_2 : ∀ i : grid2.Coords, EltTy.bits .f32 = 32 ∨ (Rect.block (s := S4x1x1024) S1x1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x200x1024.size a ≤ S10x4x1000x1024.size a
  hwx2_3 : ∀ i : grid2.Coords, EltTy.bits .bf16 = 32 ∨ (Rect.block (s := S10x4x1000x1024) S1x1x200x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x200x1024.size a ≤ S10x4x1000x1024.size a
  hwx3_0 : ∀ i : grid3.Coords, EltTy.bits .bf16 = 32 ∨ (Rect.block (s := S10x4x1000x1024) S1x1x200x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x1000x1024.size a ≤ S10x4x1000x1024.size a
  hwx3_1 : ∀ i : grid3.Coords, EltTy.bits .bf16 = 32 ∨ (Rect.block (s := S10x4x1000x1024) S1x1x1000x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1000x1024.size a ≤ S10x4x1000x1024.size a
  hwx3_2 : ∀ i : grid3.Coords, EltTy.bits .bf16 = 32 ∨ (Rect.block (s := S10x4x1000x1024) S1x1x1000x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x200x1024.size a ≤ S10x1000x4096.size a
  hwx3_3 : ∀ i : grid3.Coords, EltTy.bits .f32 = 32 ∨ (Rect.block (s := S10x1000x4096) S1x200x1024.size (cc3_transform_3 i) (hinb3_3 i)).WholeWords (EltTy.packing .f32)

variable [Facts₀]

def dot_S200x4096_S1024x4096_S200x1024_1_1_0_0_n_n : DotDims S200x4096 S1024x4096 S200x1024 where
  lhsContracting := [1]
  rhsContracting := [1]
  lhsNonContracting := [0]
  rhsNonContracting := [0]
  lhsBatch := []
  rhsBatch := []
  wf := dot_S200x4096_S1024x4096_S200x1024_1_1_0_0_n_n_wf
def dot_S200x1024_S1000x1024_S200x1000_1_1_0_0_n_n : DotDims S200x1024 S1000x1024 S200x1000 where
  lhsContracting := [1]
  rhsContracting := [1]
  lhsNonContracting := [0]
  rhsNonContracting := [0]
  lhsBatch := []
  rhsBatch := []
  wf := dot_S200x1024_S1000x1024_S200x1000_1_1_0_0_n_n_wf
def dot_S200x1000_S1000x1024_S200x1024_1_0_0_1_n_n : DotDims S200x1000 S1000x1024 S200x1024 where
  lhsContracting := [1]
  rhsContracting := [0]
  lhsNonContracting := [0]
  rhsNonContracting := [1]
  lhsBatch := []
  rhsBatch := []
  wf := dot_S200x1000_S1000x1024_S200x1024_1_0_0_1_n_n_wf

abbrev win0_0 : Pipeline.Window sig grid0 :=
  Pipeline.Window.ofSpec (Memref.whole main_v0) S1x200x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x200x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x200x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x200x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x200x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x1x200x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x1x200x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x1x1000x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x1x1000x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x200x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10x1000x4096 : Shape := ⟨3, ![10, 1000, 4096]⟩
abbrev S4x1024x4096 : Shape := ⟨3, ![4, 1024, 4096]⟩
abbrev S4x1024 : Shape := ⟨2, ![4, 1024]⟩
abbrev S4x1024x10x1000 : Shape := ⟨4, ![4, 1024, 10, 1000]⟩
abbrev S10x4x1000x1024 : Shape := ⟨4, ![10, 4, 1000, 1024]⟩
abbrev S1x4x1x1024 : Shape := ⟨4, ![1, 4, 1, 1024]⟩
abbrev S10x4x1000x1000 : Shape := ⟨4, ![10, 4, 1000, 1000]⟩
abbrev S_ : Shape := ⟨0, ![]⟩
abbrev S1000x1000 : Shape := ⟨2, ![1000, 1000]⟩
abbrev S1x1x1000x1000 : Shape := ⟨4, ![1, 1, 1000, 1000]⟩
abbrev S10x4x1000 : Shape := ⟨3, ![10, 4, 1000]⟩
abbrev S10x4x1000x1 : Shape := ⟨4, ![10, 4, 1000, 1]⟩
abbrev S10x1000x4x1024 : Shape := ⟨4, ![10, 1000, 4, 1024]⟩

abbrev nBuf : Space → Nat
  | .hbm => 51
  | .vmem => 0
  | .smem => 0
  | _ => 0

abbrev bufTy : (tb : Table) → Fin (tcTables nBuf tb) → BufTy
  | .hbm, ⟨0, _⟩ => ⟨S10x1000x4096, .f32⟩
  | .hbm, ⟨1, _⟩ => ⟨S4x1024x4096, .f32⟩
  | .hbm, ⟨2, _⟩ => ⟨S4x1024, .f32⟩
  | .hbm, ⟨3, _⟩ => ⟨S4x1024x4096, .f32⟩
  | .hbm, ⟨4, _⟩ => ⟨S4x1024, .f32⟩
  | .hbm, ⟨5, _⟩ => ⟨S4x1024x4096, .f32⟩
  | .hbm, ⟨6, _⟩ => ⟨S4x1024, .f32⟩
  | .hbm, ⟨7, _⟩ => ⟨S4x1024x10x1000, .f32⟩
  | .hbm, ⟨8, _⟩ => ⟨S10x4x1000x1024, .f32⟩
  | .hbm, ⟨9, _⟩ => ⟨S1x4x1x1024, .f32⟩
  | .hbm, ⟨10, _⟩ => ⟨S10x4x1000x1024, .f32⟩
  | .hbm, ⟨11, _⟩ => ⟨S10x4x1000x1024, .f32⟩
  | .hbm, ⟨12, _⟩ => ⟨S4x1024x10x1000, .f32⟩
  | .hbm, ⟨13, _⟩ => ⟨S10x4x1000x1024, .f32⟩
  | .hbm, ⟨14, _⟩ => ⟨S1x4x1x1024, .f32⟩
  | .hbm, ⟨15, _⟩ => ⟨S10x4x1000x1024, .f32⟩
  | .hbm, ⟨16, _⟩ => ⟨S10x4x1000x1024, .f32⟩
  | .hbm, ⟨17, _⟩ => ⟨S4x1024x10x1000, .f32⟩
  | .hbm, ⟨18, _⟩ => ⟨S10x4x1000x1024, .f32⟩
  | .hbm, ⟨19, _⟩ => ⟨S1x4x1x1024, .f32⟩
  | .hbm, ⟨20, _⟩ => ⟨S10x4x1000x1024, .f32⟩
  | .hbm, ⟨21, _⟩ => ⟨S10x4x1000x1024, .f32⟩
  | .hbm, ⟨22, _⟩ => ⟨S10x4x1000x1000, .f32⟩
  | .hbm, ⟨23, _⟩ => ⟨S_, .f32⟩
  | .hbm, ⟨24, _⟩ => ⟨S10x4x1000x1000, .f32⟩
  | .hbm, ⟨25, _⟩ => ⟨S10x4x1000x1000, .f32⟩
  | .hbm, ⟨26, _⟩ => ⟨S_, .i1⟩
  | .hbm, ⟨27, _⟩ => ⟨S1000x1000, .i1⟩
  | .hbm, ⟨28, _⟩ => ⟨S1000x1000, .i32⟩
  | .hbm, ⟨29, _⟩ => ⟨S_, .i32⟩
  | .hbm, ⟨30, _⟩ => ⟨S1000x1000, .i32⟩
  | .hbm, ⟨31, _⟩ => ⟨S1000x1000, .i32⟩
  | .hbm, ⟨32, _⟩ => ⟨S1000x1000, .i32⟩
  | .hbm, ⟨33, _⟩ => ⟨S1000x1000, .i1⟩
  | .hbm, ⟨34, _⟩ => ⟨S_, .i1⟩
  | .hbm, ⟨35, _⟩ => ⟨S1000x1000, .i1⟩
  | .hbm, ⟨36, _⟩ => ⟨S1000x1000, .i1⟩
  | .hbm, ⟨37, _⟩ => ⟨S1x1x1000x1000, .i1⟩
  | .hbm, ⟨38, _⟩ => ⟨S_, .f32⟩
  | .hbm, ⟨39, _⟩ => ⟨S_, .f32⟩
  | .hbm, ⟨40, _⟩ => ⟨S10x4x1000x1000, .i1⟩
  | .hbm, ⟨41, _⟩ => ⟨S10x4x1000x1000, .f32⟩
  | .hbm, ⟨42, _⟩ => ⟨S10x4x1000x1000, .f32⟩
  | .hbm, ⟨43, _⟩ => ⟨S_, .f32⟩
  | .hbm, ⟨44, _⟩ => ⟨S10x4x1000, .f32⟩
  | .hbm, ⟨45, _⟩ => ⟨S10x4x1000x1, .f32⟩
  | .hbm, ⟨46, _⟩ => ⟨S10x4x1000x1000, .f32⟩
  | .hbm, ⟨47, _⟩ => ⟨S10x4x1000x1000, .f32⟩
  | .hbm, ⟨48, _⟩ => ⟨S10x4x1000x1024, .f32⟩
  | .hbm, ⟨49, _⟩ => ⟨S10x1000x4x1024, .f32⟩
  | .hbm, ⟨50, _⟩ => ⟨S10x1000x4096, .f32⟩
  | _, _ => ⟨S10x1000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  transposes_S4x1024x10x1000_S10x4x1000x1024_2_0_3_1 : S4x1024x10x1000.Transposes [2, 0, 3, 1] S10x4x1000x1024
  bcast_S4x1024_S1x4x1x1024_1_3 : S4x1024.BroadcastsInDim S1x4x1x1024 (![1, 3] : Fin 2 → Fin S1x4x1x1024.rank)
  bcast_S1x4x1x1024_S10x4x1000x1024_0_1_2_3 : S1x4x1x1024.BroadcastsInDim S10x4x1000x1024 (![0, 1, 2, 3] : Fin 4 → Fin S10x4x1000x1024.rank)
  bcast_S_S10x4x1000x1000 : S_.BroadcastsInDim S10x4x1000x1000 (![] : Fin 0 → Fin S10x4x1000x1000.rank)
  bcast_S_S1000x1000 : S_.BroadcastsInDim S1000x1000 (![] : Fin 0 → Fin S1000x1000.rank)
  bcast_S1000x1000_S1x1x1000x1000_2_3 : S1000x1000.BroadcastsInDim S1x1x1000x1000 (![2, 3] : Fin 2 → Fin S1x1x1000x1000.rank)
  bcast_S1x1x1000x1000_S10x4x1000x1000_0_1_2_3 : S1x1x1000x1000.BroadcastsInDim S10x4x1000x1000 (![0, 1, 2, 3] : Fin 4 → Fin S10x4x1000x1000.rank)
  reducesTo_S10x4x1000x1000_S10x4x1000_d3 : S10x4x1000x1000.ReducesTo [3] S10x4x1000
  h_S_ : 0 < S_.numel
  bcast_S10x4x1000_S10x4x1000x1_0_1_2 : S10x4x1000.BroadcastsInDim S10x4x1000x1 (![0, 1, 2] : Fin 3 → Fin S10x4x1000x1.rank)
  bcast_S10x4x1000x1_S10x4x1000x1000_0_1_2_3 : S10x4x1000x1.BroadcastsInDim S10x4x1000x1000 (![0, 1, 2, 3] : Fin 4 → Fin S10x4x1000x1000.rank)
  transposes_S10x4x1000x1024_S10x1000x4x1024_0_2_1_3 : S10x4x1000x1024.Transposes [0, 2, 1, 3] S10x1000x4x1024
  shapeCasts_S10x1000x4x1024_S10x1000x4096 : S10x1000x4x1024.ShapeCasts S10x1000x4096
  dot_S4x1024x4096_S10x1000x4096_S4x1024x10x1000_2_2_01_01_n_n_wf : DotDims.WF S4x1024x4096 S10x1000x4096 S4x1024x10x1000 [2] [2] [0, 1] [0, 1] [] []
  dot_S10x4x1000x1024_S10x4x1000x1024_S10x4x1000x1000_3_3_2_2_01_01_wf : DotDims.WF S10x4x1000x1024 S10x4x1000x1024 S10x4x1000x1000 [3] [3] [2] [2] [0, 1] [0, 1]
  dot_S10x4x1000x1000_S10x4x1000x1024_S10x4x1000x1024_3_2_2_3_01_01_wf : DotDims.WF S10x4x1000x1000 S10x4x1000x1024 S10x4x1000x1024 [3] [2] [2] [3] [0, 1] [0, 1]

variable [Facts₀]

def dot_S4x1024x4096_S10x1000x4096_S4x1024x10x1000_2_2_01_01_n_n : DotDims S4x1024x4096 S10x1000x4096 S4x1024x10x1000 where
  lhsContracting := [2]
  rhsContracting := [2]
  lhsNonContracting := [0, 1]
  rhsNonContracting := [0, 1]
  lhsBatch := []
  rhsBatch := []
  wf := dot_S4x1024x4096_S10x1000x4096_S4x1024x10x1000_2_2_01_01_n_n_wf
def dot_S10x4x1000x1024_S10x4x1000x1024_S10x4x1000x1000_3_3_2_2_01_01 : DotDims S10x4x1000x1024 S10x4x1000x1024 S10x4x1000x1000 where
  lhsContracting := [3]
  rhsContracting := [3]
  lhsNonContracting := [2]
  rhsNonContracting := [2]
  lhsBatch := [0, 1]
  rhsBatch := [0, 1]
  wf := dot_S10x4x1000x1024_S10x4x1000x1024_S10x4x1000x1000_3_3_2_2_01_01_wf
def dot_S10x4x1000x1000_S10x4x1000x1024_S10x4x1000x1024_3_2_2_3_01_01 : DotDims S10x4x1000x1000 S10x4x1000x1024 S10x4x1000x1024 where
  lhsContracting := [3]
  rhsContracting := [2]
  lhsNonContracting := [2]
  rhsNonContracting := [3]
  lhsBatch := [0, 1]
  rhsBatch := [0, 1]
  wf := dot_S10x4x1000x1000_S10x4x1000x1024_S10x4x1000x1024_3_2_2_3_01_01_wf

class Facts : Prop extends Facts₀ where

variable [Facts]
-- ==== Proof.KernelRun.lean ====
/-
  The idealized kernel's run with its result named. @main is a stretch of host operations (the four format changes and
  the three bias reshapes) followed by four pallas_calls: the three projections and the attention. Every weakly fair
  execution terminates, nothing faulting; the seven argument arrays end as launched, and the result array ends at what
  the attention pipeline's write-backs leave of it: the fold, over the 200 grid points, of each point's block written
  into the array the region found. The three projected arrays the attention reads are, in the same way, what the three
  projection pipelines left (`Value` modules read those folds as whole-array functions).
-/
import proofs.«136977_j46110768890297_2_alg».proof.Proof.FrameKernelIdeal

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the attention pipeline's folded write-backs, the arguments as launched. The result's
    buffer is the attention call's output window (window 3), so its last contents are that window's array after all
    200 points. -/
theorem run : θ_run defs (onTc (τ := τ) (main (F := F))) ⟨m, fun _ => 0, ρ⟩ (fun r => ∀ c : Dev nD,
      r.2.mem ((c.tc : Thread nD τ).loc main_v10) = (dat3 (V4 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v10 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.Spec.lean ====
/-
  The function both programs compute, on the extended reals, index by index.

  Per head `hh` the input `x[b, l, ·]` is projected three times, `y[b, hh, l, d] = Σ_s x[b, l, s] · W[hh, d, s] + bias[hh, d]`
  (`proj`: queries, keys, values). The scores of a query row `l` against the key rows `m` are the dot products over the
  1024 head coordinates, times 1/32; a key row after the query row (`m > l`) is masked to -∞ (`masked`); the row's
  maximum over all 1000 key rows is subtracted (`rowMax`; no exponential is taken), and the result row is the sum over
  the key rows of the shifted scores times the value rows (`attnAt`). The heads are laid side by side on the last axis:
  column `hh · 1024 + d` (`attn`).

  `tileProj` and `tileAttn` are the same two formulas on the blocks one grid point sees: 200 query rows against the
  weight rows (or against all 1000 key and value rows), the block's first query row being row `200 · qt` of the array.
-/
import Idealize.ShloMosaic.Lib.ValueIdx
import Idealize.ShloMosaic.PureOps.Ideal

noncomputable section

open scoped BigOperators

namespace Cert.Attn

open Idealize.ShloMosaic Idealize.ShloMosaic.ValueIdx

/-- A head's projection at (b, hh, l, d): row (b, l) of the input against row (hh, d) of the weights, plus the bias. -/
def projAt (x : FVec Ideal ⟨3, ![10, 1000, 4096]⟩ .f32) (W : FVec Ideal ⟨3, ![4, 1024, 4096]⟩ .f32)
    (bias : FVec Ideal ⟨2, ![4, 1024]⟩ .f32) (b : Fin 10) (hh : Fin 4) (l : Fin 1000) (d : Fin 1024) : EReal :=
  (∑ s : Fin 4096, x (ix3 b l s) * W (ix3 hh d s)) + bias (ix2 hh d)

/-- The projected array [10, 4, 1000, 1024]. -/
def proj (x : FVec Ideal ⟨3, ![10, 1000, 4096]⟩ .f32) (W : FVec Ideal ⟨3, ![4, 1024, 4096]⟩ .f32)
    (bias : FVec Ideal ⟨2, ![4, 1024]⟩ .f32) : FVec Ideal ⟨4, ![10, 4, 1000, 1024]⟩ .f32 :=
  fun j => projAt x W bias (j 0) (j 1) (j 2) (j 3)

theorem proj_apply (x : FVec Ideal ⟨3, ![10, 1000, 4096]⟩ .f32) (W : FVec Ideal ⟨3, ![4, 1024, 4096]⟩ .f32)
    (bias : FVec Ideal ⟨2, ![4, 1024]⟩ .f32) (b : Fin 10) (hh : Fin 4) (l : Fin 1000) (d : Fin 1024) :
    proj x W bias (ix4 b hh l d) = projAt x W bias b hh l d := rfl

/-- The scaled score of query row `l` against key row `m`. -/
def score (q k : FVec Ideal ⟨4, ![10, 4, 1000, 1024]⟩ .f32) (b : Fin 10) (hh : Fin 4) (l m : Fin 1000) : EReal :=
  (∑ e : Fin 1024, q (ix4 b hh l e) * k (ix4 b hh m e)) * Ideal.ofBits .f32 0x3D000000#32

/-- The causal mask: a key row after the query row scores -∞. -/
def masked (q k : FVec Ideal ⟨4, ![10, 4, 1000, 1024]⟩ .f32) (b : Fin 10) (hh : Fin 4) (l m : Fin 1000) : EReal :=
  if m.val ≤ l.val then score q k b hh l m else Ideal.ofBits .f32 0xFF800000#32

/-- The maximum of a query row's masked scores over all key rows, from -∞. -/
def rowMax (q k : FVec Ideal ⟨4, ![10, 4, 1000, 1024]⟩ .f32) (b : Fin 10) (hh : Fin 4) (l : Fin 1000) : EReal :=
  (Finset.univ : Finset (Fin 1000)).fold max (Ideal.ofBits .f32 0xFF800000#32) (fun m => masked q k b hh l m)

/-- The result at (b, hh, l, d): the shifted scores of row `l` against column `d` of the values. -/
def attnAt (q k v : FVec Ideal ⟨4, ![10, 4, 1000, 1024]⟩ .f32) (b : Fin 10) (hh : Fin 4) (l : Fin 1000) (d : Fin 1024) : EReal :=
  ∑ m : Fin 1000, (masked q k b hh l m - rowMax q k b hh l) * v (ix4 b hh m d)

/-- The result array [10, 1000, 4096]: head `hh`'s 1024 columns start at column `hh · 1024`. -/
def attn (q k v : FVec Ideal ⟨4, ![10, 4, 1000, 1024]⟩ .f32) : FVec Ideal ⟨3, ![10, 1000, 4096]⟩ .f32 :=
  fun j => attnAt q k v (j 0)
    ⟨(j 2).val / 1024, by have h : (j 2).val < 4096 := (j 2).isLt; omega⟩ (j 1)
    ⟨(j 2).val % 1024, Nat.mod_lt _ (by norm_num)⟩

/-- The whole computation of the seven arguments. -/
def result (x : FVec Ideal ⟨3, ![10, 1000, 4096]⟩ .f32)
    (Wq : FVec Ideal ⟨3, ![4, 1024, 4096]⟩ .f32) (bq : FVec Ideal ⟨2, ![4, 1024]⟩ .f32)
    (Wk : FVec Ideal ⟨3, ![4, 1024, 4096]⟩ .f32) (bk : FVec Ideal ⟨2, ![4, 1024]⟩ .f32)
    (Wv : FVec Ideal ⟨3, ![4, 1024, 4096]⟩ .f32) (bv : FVec Ideal ⟨2, ![4, 1024]⟩ .f32) :
    FVec Ideal ⟨3, ![10, 1000, 4096]⟩ .f32 :=
  attn (proj x Wq bq) (proj x Wk bk) (proj x Wv bv)

/-! ## The same formulas on one grid point's blocks -/

/-- A projection point: the block's row `r` of the input against row `d` of the head's weights, plus the head's bias. -/
def tileProj (x0 : (⟨3, ![1, 200, 4096]⟩ : Shape).Idx → EReal) (x1 : (⟨3, ![1, 1024, 4096]⟩ : Shape).Idx → EReal)
    (x2 : (⟨3, ![1, 1, 1024]⟩ : Shape).Idx → EReal) (r : Fin 200) (d : Fin 1024) : EReal :=
  (∑ s : Fin 4096, x0 (ix3 (0 : Fin 1) r s) * x1 (ix3 (0 : Fin 1) d s)) + x2 (ix3 (0 : Fin 1) (0 : Fin 1) d)

/-- The masked score of the block's query row `r` (row `200 · qt + r` of the array) against key row `m`. -/
def tileMasked (qt : ℕ) (x0 : (⟨4, ![1, 1, 200, 1024]⟩ : Shape).Idx → EReal) (x1 : (⟨4, ![1, 1, 1000, 1024]⟩ : Shape).Idx → EReal)
    (r : Fin 200) (m : Fin 1000) : EReal :=
  if m.val ≤ qt * 200 + r.val then
    (∑ e : Fin 1024, x0 (ix4 (0 : Fin 1) (0 : Fin 1) r e) * x1 (ix4 (0 : Fin 1) (0 : Fin 1) m e)) * Ideal.ofBits .f32 0x3D000000#32
  else Ideal.ofBits .f32 0xFF800000#32

/-- An attention point: the block's query row `r` against all key rows, shifted by the row's maximum, against column
    `d` of the value rows. -/
def tileAttn (qt : ℕ) (x0 : (⟨4, ![1, 1, 200, 1024]⟩ : Shape).Idx → EReal) (x1 x2 : (⟨4, ![1, 1, 1000, 1024]⟩ : Shape).Idx → EReal)
    (r : Fin 200) (d : Fin 1024) : EReal :=
  ∑ m : Fin 1000, (tileMasked qt x0 x1 r m
      - (Finset.univ : Finset (Fin 1000)).fold max (Ideal.ofBits .f32 0xFF800000#32) (fun m' => tileMasked qt x0 x1 r m'))
    * x2 (ix4 (0 : Fin 1) (0 : Fin 1) m d)

end Cert.Attn

end
-- ==== Proof.ProjFacts0.lean ====
/-
  Projection 0 as one whole-array function. The grid is (head, batch, row tile): point (hh, b, lt) reads rows
  200·lt … 200·lt + 199 of batch b of the input, all 1024 × 4096 weights of head hh and that head's bias row, and writes
  rows 200·lt … of the output's slab (b, hh). So the block a point writes back is the restriction to its rows of ONE
  function of the three arrays the region finds, `y[b, hh, l, d] = Σ_s x[b, l, s] · W[hh, d, s] + bias[hh, 0, d]`; the 200 blocks
  tile the output [10, 4, 1000, 1024], and the array after the region is that function.
-/
import proofs.«136977_j46110768890297_2_alg».proof.Proof.FrameKernelIdeal
import proofs.«136977_j46110768890297_2_alg».proof.Proof.Spec
import Idealize.ShloMosaic.Lib.Pipeline.Value
import Idealize.ShloMosaic.Lib.ValueIdx

set_option maxRecDepth 16384

noncomputable section

open scoped BigOperators

namespace Cert.KernelIdeal.Proj0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected array as a function of the three arrays the region reads. -/
def G (a0 : S10x1000x4096.Idx → EReal) (a1 : S4x1024x4096.Idx → EReal) (a2 : S4x1x1024.Idx → EReal) :
    S10x4x1000x1024.Idx → EReal := fun j =>
  (∑ s : Fin 4096, a0 (ix3 (j 0) (j 2) s) * a1 (ix3 (j 1) (j 3) s)) + a2 (ix3 (j 1) (0 : Fin 1) (j 3))

/-- The index maps over the grid: the input block follows the output's batch and row tile, the weights and the bias
    its head; every other block coordinate is 0, and the output's block coordinates stay in range. -/
theorem idx_facts : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 3) = win0_3.index t (1 : Fin 4) ∧ win0_1.index t (1 : Fin 3) = 0 ∧ win0_1.index t (2 : Fin 3) = 0
    ∧ win0_2.index t (0 : Fin 3) = win0_3.index t (1 : Fin 4) ∧ win0_2.index t (1 : Fin 3) = 0 ∧ win0_2.index t (2 : Fin 3) = 0
    ∧ win0_3.index t (0 : Fin 4) ≤ 9 ∧ win0_3.index t (1 : Fin 4) ≤ 3 ∧ win0_3.index t (2 : Fin 4) ≤ 4
    ∧ win0_3.index t (3 : Fin 4) = 0 :=
  (by decide +kernel : ∀ t : Fin grid0.N, _)

/-- Every (batch, head, row tile) is some point's output block. -/
theorem idx_onto : ∀ (q0 : Fin 10) (q1 : Fin 4) (q2 : Fin 5), ∃ t : Fin cfg0.N,
    win0_3.index t = ![q0.val, q1.val, q2.val, 0] :=
  (by decide +kernel : ∀ (q0 : Fin 10) (q1 : Fin 4) (q2 : Fin 5), ∃ t : Fin grid0.N, win0_3.index t = ![q0.val, q1.val, q2.val, 0])

end Cert.KernelIdeal.Proj0

end
-- ==== Proof.ProjBlocks0.lean ====
/-
  Projection 0: from the blocks the 200 points write back to the whole output array. What point (hh, b, lt) leaves
  in its output block is, entry (r, d), the dot product of input row (b, 200·lt + r) with weight row (hh, d) plus the bias
  entry (hh, 0, d): the block's rows are rows 200·lt … of slab (b, hh) of ONE function of the arrays the region finds.
  The blocks tile the output — the point covering (b, hh, l, ·) has row tile l / 200 — so the array ends at that function.
-/
import proofs.«136977_j46110768890297_2_alg».proof.Proof.ProjFacts0

set_option maxRecDepth 16384

noncomputable section

open scoped BigOperators

namespace Cert.KernelIdeal.Proj0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of its block, in terms of the three blocks it loads (supplied where the
    payload is read at an index). -/
abbrev PayloadAt : Prop :=
  ∀ (x0 : Vec Ideal S1x200x4096 .bf16) (x1 : Vec Ideal S1x1024x4096 .bf16) (x2 : Vec Ideal S1x1x1024 .f32) (r : Fin 200) (d : Fin 1024),
    k0_pay1 (F := Ideal) x0 x1 x2 (ix4 (0 : Fin 1) (0 : Fin 1) r d) = Cert.Attn.tileProj x0 x1 x2 r d

/-- What point `t` writes back is block `t` of `G` of the arrays the region finds. -/
theorem flushed_eq (hpay : PayloadAt) (c : Dev nD) (t : Fin cfg0.N) :
    (dat0 V c).flushed 3 t
      = ((cfg0.win 3).blk t).view.read (Elt Ideal) (G (V c main_v0) (V c main_v1) (V c main_v4)) := by
  show (cfg0.win 3).cut (grid0.coords t) ((dat0 V c).after 3 t) = _
  rw [after0_3]
  unfold out0_3
  rw [View.canon_unit_zero hz4]
  simp only [View.ld_unit_zero (S := S1x200x4096) hz3, View.ld_unit_zero (S := S1x1024x4096) hz3,
    View.ld_unit_zero (S := S1x1x1024) hz3]
  obtain ⟨e00, e01, e02, e10, e11, e12, e20, e21, e22, b0, b1, b2, e33⟩ := idx_facts t
  funext j
  obtain ⟨z0, z1, r, d, rfl⟩ : ∃ (z0 z1 : Fin 1) (r : Fin 200) (d : Fin 1024), j = ix4 z0 z1 r d :=
    ⟨j 0, j 1, j 2, j 3, eq_ix4 j⟩
  obtain rfl : z0 = 0 := Subsingleton.elim _ _
  obtain rfl : z1 = 0 := Subsingleton.elim _ _
  refine (hpay (iblk0 V c 0 t) (iblk0 V c 1 t) (iblk0 V c 2 t) r d).trans ?_
  show Cert.Attn.tileProj (iblk0 V c 0 t) (iblk0 V c 1 t) (iblk0 V c 2 t) r d
    = G (V c main_v0) (V c main_v1) (V c main_v4) (((cfg0.win 3).blk t).view.emb (ix4 (0 : Fin 1) (0 : Fin 1) r d))
  unfold Cert.Attn.tileProj G
  have h0 : ∀ s : Fin 4096, iblk0 V c 0 t (ix3 (0 : Fin 1) r s)
      = (V c main_v0 : S10x1000x4096.Idx → EReal)
          (ix3 ((((cfg0.win 3).blk t).view.emb (ix4 (0 : Fin 1) (0 : Fin 1) r d)) 0)
            ((((cfg0.win 3).blk t).view.emb (ix4 (0 : Fin 1) (0 : Fin 1) r d)) 2) s) := fun s => by
    show (V c main_v0 : S10x1000x4096.Idx → EReal) (((cfg0.win 0).blk t).view.emb (ix3 (0 : Fin 1) r s)) = _
    refine congrArg (V c main_v0 : S10x1000x4096.Idx → EReal) ?_
    funext a; apply Fin.ext
    match a with
    | ⟨0, _⟩ => show win0_0.index t (0 : Fin 3) * 1 + 1 * 0 = win0_3.index t (0 : Fin 4) * 1 + 1 * 0; omega
    | ⟨1, _⟩ => show win0_0.index t (1 : Fin 3) * 200 + 1 * r.val = win0_3.index t (2 : Fin 4) * 200 + 1 * r.val; omega
    | ⟨2, _⟩ => show win0_0.index t (2 : Fin 3) * 4096 + 1 * s.val = s.val; omega
  have h1 : ∀ s : Fin 4096, iblk0 V c 1 t (ix3 (0 : Fin 1) d s)
      = (V c main_v1 : S4x1024x4096.Idx → EReal)
          (ix3 ((((cfg0.win 3).blk t).view.emb (ix4 (0 : Fin 1) (0 : Fin 1) r d)) 1)
            ((((cfg0.win 3).blk t).view.emb (ix4 (0 : Fin 1) (0 : Fin 1) r d)) 3) s) := fun s => by
    show (V c main_v1 : S4x1024x4096.Idx → EReal) (((cfg0.win 1).blk t).view.emb (ix3 (0 : Fin 1) d s)) = _
    refine congrArg (V c main_v1 : S4x1024x4096.Idx → EReal) ?_
    funext a; apply Fin.ext
    match a with
    | ⟨0, _⟩ => show win0_1.index t (0 : Fin 3) * 1 + 1 * 0 = win0_3.index t (1 : Fin 4) * 1 + 1 * 0; omega
    | ⟨1, _⟩ => show win0_1.index t (1 : Fin 3) * 1024 + 1 * d.val = win0_3.index t (3 : Fin 4) * 1024 + 1 * d.val; omega
    | ⟨2, _⟩ => show win0_1.index t (2 : Fin 3) * 4096 + 1 * s.val = s.val; omega
  have h2 : iblk0 V c 2 t (ix3 (0 : Fin 1) (0 : Fin 1) d)
      = (V c main_v4 : S4x1x1024.Idx → EReal)
          (ix3 ((((cfg0.win 3).blk t).view.emb (ix4 (0 : Fin 1) (0 : Fin 1) r d)) 1) (0 : Fin 1)
            ((((cfg0.win 3).blk t).view.emb (ix4 (0 : Fin 1) (0 : Fin 1) r d)) 3)) := by
    show (V c main_v4 : S4x1x1024.Idx → EReal) (((cfg0.win 2).blk t).view.emb (ix3 (0 : Fin 1) (0 : Fin 1) d)) = _
    refine congrArg (V c main_v4 : S4x1x1024.Idx → EReal) ?_
    funext a; apply Fin.ext
    match a with
    | ⟨0, _⟩ => show win0_2.index t (0 : Fin 3) * 1 + 1 * 0 = win0_3.index t (1 : Fin 4) * 1 + 1 * 0; omega
    | ⟨1, _⟩ => show win0_2.index t (1 : Fin 3) * 1 + 1 * 0 = 0; omega
    | ⟨2, _⟩ => show win0_2.index t (2 : Fin 3) * 1024 + 1 * d.val = win0_3.index t (3 : Fin 4) * 1024 + 1 * d.val; omega
  simp only [h0, h1, h2]

/-- An index of the output is in point `t`'s block iff each coordinate is in the block's range on its axis. -/
theorem mem_blk (t : Fin cfg0.N) (i : S10x4x1000x1024.Idx) :
    i ∈ ((cfg0.win 3).blk t).view.set ↔ ∀ a : Fin 4, win0_3.index t a * S1x1x200x1024.size a ≤ (i a).val
      ∧ (i a).val < win0_3.index t a * S1x1x200x1024.size a + S1x1x200x1024.size a := by
  show i ∈ ((View.whole main_v7).slice (win0_3.rect t)).set ↔ _
  rw [View.set_slice_whole, Rect.mem_set_unit]
  exact Iff.rfl

/-- The blocks tile the output: entry (b, hh, l, d) is in the block of the point with batch b, head hh, row tile l / 200. -/
theorem cover (i : S10x4x1000x1024.Idx) :
    ∃ t : Fin cfg0.N, (cfg0.win 3).flush t = true ∧ i ∈ ((cfg0.win 3).blk t).view.set := by
  have hi0 : (i 0).val < 10 := (i 0).isLt
  have hi1 : (i 1).val < 4 := (i 1).isLt
  have hi2 : (i 2).val < 1000 := (i 2).isLt
  have hi3 : (i 3).val < 1024 := (i 3).isLt
  obtain ⟨t, ht⟩ := idx_onto ⟨(i 0).val, hi0⟩ ⟨(i 1).val, hi1⟩ ⟨(i 2).val / 200, by omega⟩
  have q0 : win0_3.index t (0 : Fin 4) = (i 0).val := congrFun ht 0
  have q1 : win0_3.index t (1 : Fin 4) = (i 1).val := congrFun ht 1
  have q2 : win0_3.index t (2 : Fin 4) = (i 2).val / 200 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 200 ≤ (i 2).val ∧ (i 2).val < win0_3.index t (2 : Fin 4) * 200 + 200; omega
  | ⟨3, _⟩ => show win0_3.index t (3 : Fin 4) * 1024 ≤ (i 3).val ∧ (i 3).val < win0_3.index t (3 : Fin 4) * 1024 + 1024; omega

/-- The output array after the region: `G` of the arrays the region found. -/
theorem final (hpay : PayloadAt) (c : Dev nD) :
    (dat0 V c).arrAt 3 cfg0.N = G (V c main_v0) (V c main_v1) (V c main_v4) :=
  (dat0 V c).arrAt_eq_of_cover 3 _ (fun t _ => flushed_eq V hpay c t) cover

end Cert.KernelIdeal.Proj0

end
-- ==== Proof.ProjFacts1.lean ====
/-
  Projection 1 as one whole-array function. The grid is (head, batch, row tile): point (hh, b, lt) reads rows
  200·lt … 200·lt + 199 of batch b of the input, all 1024 × 4096 weights of head hh and that head's bias row, and writes
  rows 200·lt … of the output's slab (b, hh). So the block a point writes back is the restriction to its rows of ONE
  function of the three arrays the region finds, `y[b, hh, l, d] = Σ_s x[b, l, s] · W[hh, d, s] + bias[hh, 0, d]`; the 200 blocks
  tile the output [10, 4, 1000, 1024], and the array after the region is that function.
-/
import proofs.«136977_j46110768890297_2_alg».proof.Proof.FrameKernelIdeal
import proofs.«136977_j46110768890297_2_alg».proof.Proof.Spec
import Idealize.ShloMosaic.Lib.Pipeline.Value
import Idealize.ShloMosaic.Lib.ValueIdx

set_option maxRecDepth 16384

noncomputable section

open scoped BigOperators

namespace Cert.KernelIdeal.Proj1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected array as a function of the three arrays the region reads. -/
def G (a0 : S10x1000x4096.Idx → EReal) (a1 : S4x1024x4096.Idx → EReal) (a2 : S4x1x1024.Idx → EReal) :
    S10x4x1000x1024.Idx → EReal := fun j =>
  (∑ s : Fin 4096, a0 (ix3 (j 0) (j 2) s) * a1 (ix3 (j 1) (j 3) s)) + a2 (ix3 (j 1) (0 : Fin 1) (j 3))

/-- The index maps over the grid: the input block follows the output's batch and row tile, the weights and the bias
    its head; every other block coordinate is 0, and the output's block coordinates stay in range. -/
theorem idx_facts : ∀ t : Fin cfg1.N,
    win1_0.index t (0 : Fin 3) = win1_3.index t (0 : Fin 4) ∧ win1_0.index t (1 : Fin 3) = win1_3.index t (2 : Fin 4)
    ∧ win1_0.index t (2 : Fin 3) = 0
    ∧ win1_1.index t (0 : Fin 3) = win1_3.index t (1 : Fin 4) ∧ win1_1.index t (1 : Fin 3) = 0 ∧ win1_1.index t (2 : Fin 3) = 0
    ∧ win1_2.index t (0 : Fin 3) = win1_3.index t (1 : Fin 4) ∧ win1_2.index t (1 : Fin 3) = 0 ∧ win1_2.index t (2 : Fin 3) = 0
    ∧ win1_3.index t (0 : Fin 4) ≤ 9 ∧ win1_3.index t (1 : Fin 4) ≤ 3 ∧ win1_3.index t (2 : Fin 4) ≤ 4
    ∧ win1_3.index t (3 : Fin 4) = 0 :=
  (by decide +kernel : ∀ t : Fin grid1.N, _)

/-- Every (batch, head, row tile) is some point's output block. -/
theorem idx_onto : ∀ (q0 : Fin 10) (q1 : Fin 4) (q2 : Fin 5), ∃ t : Fin cfg1.N,
    win1_3.index t = ![q0.val, q1.val, q2.val, 0] :=
  (by decide +kernel : ∀ (q0 : Fin 10) (q1 : Fin 4) (q2 : Fin 5), ∃ t : Fin grid1.N, win1_3.index t = ![q0.val, q1.val, q2.val, 0])

end Cert.KernelIdeal.Proj1

end
-- ==== Proof.ProjBlocks1.lean ====
/-
  Projection 1: from the blocks the 200 points write back to the whole output array. What point (hh, b, lt) leaves
  in its output block is, entry (r, d), the dot product of input row (b, 200·lt + r) with weight row (hh, d) plus the bias
  entry (hh, 0, d): the block's rows are rows 200·lt … of slab (b, hh) of ONE function of the arrays the region finds.
  The blocks tile the output — the point covering (b, hh, l, ·) has row tile l / 200 — so the array ends at that function.
-/
import proofs.«136977_j46110768890297_2_alg».proof.Proof.ProjFacts1

set_option maxRecDepth 16384

noncomputable section

open scoped BigOperators

namespace Cert.KernelIdeal.Proj1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of its block, in terms of the three blocks it loads (supplied where the
    payload is read at an index). -/
abbrev PayloadAt : Prop :=
  ∀ (x0 : Vec Ideal S1x200x4096 .bf16) (x1 : Vec Ideal S1x1024x4096 .bf16) (x2 : Vec Ideal S1x1x1024 .f32) (r : Fin 200) (d : Fin 1024),
    k1_pay1 (F := Ideal) x0 x1 x2 (ix4 (0 : Fin 1) (0 : Fin 1) r d) = Cert.Attn.tileProj x0 x1 x2 r d

/-- What point `t` writes back is block `t` of `G` of the arrays the region finds. -/
theorem flushed_eq (hpay : PayloadAt) (c : Dev nD) (t : Fin cfg1.N) :
    (dat1 V c).flushed 3 t
      = ((cfg1.win 3).blk t).view.read (Elt Ideal) (G (V c main_v0) (V c main_v2) (V c main_v5)) := by
  show (cfg1.win 3).cut (grid1.coords t) ((dat1 V c).after 3 t) = _
  rw [after1_3]
  unfold out1_3
  rw [View.canon_unit_zero hz4]
  simp only [View.ld_unit_zero (S := S1x200x4096) hz3, View.ld_unit_zero (S := S1x1024x4096) hz3,
    View.ld_unit_zero (S := S1x1x1024) hz3]
  obtain ⟨e00, e01, e02, e10, e11, e12, e20, e21, e22, b0, b1, b2, e33⟩ := idx_facts t
  funext j
  obtain ⟨z0, z1, r, d, rfl⟩ : ∃ (z0 z1 : Fin 1) (r : Fin 200) (d : Fin 1024), j = ix4 z0 z1 r d :=
    ⟨j 0, j 1, j 2, j 3, eq_ix4 j⟩
  obtain rfl : z0 = 0 := Subsingleton.elim _ _
  obtain rfl : z1 = 0 := Subsingleton.elim _ _
  refine (hpay (iblk1 V c 0 t) (iblk1 V c 1 t) (iblk1 V c 2 t) r d).trans ?_
  show Cert.Attn.tileProj (iblk1 V c 0 t) (iblk1 V c 1 t) (iblk1 V c 2 t) r d
    = G (V c main_v0) (V c main_v2) (V c main_v5) (((cfg1.win 3).blk t).view.emb (ix4 (0 : Fin 1) (0 : Fin 1) r d))
  unfold Cert.Attn.tileProj G
  have h0 : ∀ s : Fin 4096, iblk1 V c 0 t (ix3 (0 : Fin 1) r s)
      = (V c main_v0 : S10x1000x4096.Idx → EReal)
          (ix3 ((((cfg1.win 3).blk t).view.emb (ix4 (0 : Fin 1) (0 : Fin 1) r d)) 0)
            ((((cfg1.win 3).blk t).view.emb (ix4 (0 : Fin 1) (0 : Fin 1) r d)) 2) s) := fun s => by
    show (V c main_v0 : S10x1000x4096.Idx → EReal) (((cfg1.win 0).blk t).view.emb (ix3 (0 : Fin 1) r s)) = _
    refine congrArg (V c main_v0 : S10x1000x4096.Idx → EReal) ?_
    funext a; apply Fin.ext
    match a with
    | ⟨0, _⟩ => show win1_0.index t (0 : Fin 3) * 1 + 1 * 0 = win1_3.index t (0 : Fin 4) * 1 + 1 * 0; omega
    | ⟨1, _⟩ => show win1_0.index t (1 : Fin 3) * 200 + 1 * r.val = win1_3.index t (2 : Fin 4) * 200 + 1 * r.val; omega
    | ⟨2, _⟩ => show win1_0.index t (2 : Fin 3) * 4096 + 1 * s.val = s.val; omega
  have h1 : ∀ s : Fin 4096, iblk1 V c 1 t (ix3 (0 : Fin 1) d s)
      = (V c main_v2 : S4x1024x4096.Idx → EReal)
          (ix3 ((((cfg1.win 3).blk t).view.emb (ix4 (0 : Fin 1) (0 : Fin 1) r d)) 1)
            ((((cfg1.win 3).blk t).view.emb (ix4 (0 : Fin 1) (0 : Fin 1) r d)) 3) s) := fun s => by
    show (V c main_v2 : S4x1024x4096.Idx → EReal) (((cfg1.win 1).blk t).view.emb (ix3 (0 : Fin 1) d s)) = _
    refine congrArg (V c main_v2 : S4x1024x4096.Idx → EReal) ?_
    funext a; apply Fin.ext
    match a with
    | ⟨0, _⟩ => show win1_1.index t (0 : Fin 3) * 1 + 1 * 0 = win1_3.index t (1 : Fin 4) * 1 + 1 * 0; omega
    | ⟨1, _⟩ => show win1_1.index t (1 : Fin 3) * 1024 + 1 * d.val = win1_3.index t (3 : Fin 4) * 1024 + 1 * d.val; omega
    | ⟨2, _⟩ => show win1_1.index t (2 : Fin 3) * 4096 + 1 * s.val = s.val; omega
  have h2 : iblk1 V c 2 t (ix3 (0 : Fin 1) (0 : Fin 1) d)
      = (V c main_v5 : S4x1x1024.Idx → EReal)
          (ix3 ((((cfg1.win 3).blk t).view.emb (ix4 (0 : Fin 1) (0 : Fin 1) r d)) 1) (0 : Fin 1)
            ((((cfg1.win 3).blk t).view.emb (ix4 (0 : Fin 1) (0 : Fin 1) r d)) 3)) := by
    show (V c main_v5 : S4x1x1024.Idx → EReal) (((cfg1.win 2).blk t).view.emb (ix3 (0 : Fin 1) (0 : Fin 1) d)) = _
    refine congrArg (V c main_v5 : S4x1x1024.Idx → EReal) ?_
    funext a; apply Fin.ext
    match a with
    | ⟨0, _⟩ => show win1_2.index t (0 : Fin 3) * 1 + 1 * 0 = win1_3.index t (1 : Fin 4) * 1 + 1 * 0; omega
    | ⟨1, _⟩ => show win1_2.index t (1 : Fin 3) * 1 + 1 * 0 = 0; omega
    | ⟨2, _⟩ => show win1_2.index t (2 : Fin 3) * 1024 + 1 * d.val = win1_3.index t (3 : Fin 4) * 1024 + 1 * d.val; omega
  simp only [h0, h1, h2]

/-- An index of the output is in point `t`'s block iff each coordinate is in the block's range on its axis. -/
theorem mem_blk (t : Fin cfg1.N) (i : S10x4x1000x1024.Idx) :
    i ∈ ((cfg1.win 3).blk t).view.set ↔ ∀ a : Fin 4, win1_3.index t a * S1x1x200x1024.size a ≤ (i a).val
      ∧ (i a).val < win1_3.index t a * S1x1x200x1024.size a + S1x1x200x1024.size a := by
  show i ∈ ((View.whole main_v8).slice (win1_3.rect t)).set ↔ _
  rw [View.set_slice_whole, Rect.mem_set_unit]
  exact Iff.rfl

/-- The blocks tile the output: entry (b, hh, l, d) is in the block of the point with batch b, head hh, row tile l / 200. -/
theorem cover (i : S10x4x1000x1024.Idx) :
    ∃ t : Fin cfg1.N, (cfg1.win 3).flush t = true ∧ i ∈ ((cfg1.win 3).blk t).view.set := by
  have hi0 : (i 0).val < 10 := (i 0).isLt
  have hi1 : (i 1).val < 4 := (i 1).isLt
  have hi2 : (i 2).val < 1000 := (i 2).isLt
  have hi3 : (i 3).val < 1024 := (i 3).isLt
  obtain ⟨t, ht⟩ := idx_onto ⟨(i 0).val, hi0⟩ ⟨(i 1).val, hi1⟩ ⟨(i 2).val / 200, by omega⟩
  have q0 : win1_3.index t (0 : Fin 4) = (i 0).val := congrFun ht 0
  have q1 : win1_3.index t (1 : Fin 4) = (i 1).val := congrFun ht 1
  have q2 : win1_3.index t (2 : Fin 4) = (i 2).val / 200 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 200 ≤ (i 2).val ∧ (i 2).val < win1_3.index t (2 : Fin 4) * 200 + 200; omega
  | ⟨3, _⟩ => show win1_3.index t (3 : Fin 4) * 1024 ≤ (i 3).val ∧ (i 3).val < win1_3.index t (3 : Fin 4) * 1024 + 1024; omega

/-- The output array after the region: `G` of the arrays the region found. -/
theorem final (hpay : PayloadAt) (c : Dev nD) :
    (dat1 V c).arrAt 3 cfg1.N = G (V c main_v0) (V c main_v2) (V c main_v5) :=
  (dat1 V c).arrAt_eq_of_cover 3 _ (fun t _ => flushed_eq V hpay c t) cover

end Cert.KernelIdeal.Proj1

end
-- ==== Proof.ProjFacts2.lean ====
/-
  Projection 2 as one whole-array function. The grid is (head, batch, row tile): point (hh, b, lt) reads rows
  200·lt … 200·lt + 199 of batch b of the input, all 1024 × 4096 weights of head hh and that head's bias row, and writes
  rows 200·lt … of the output's slab (b, hh). So the block a point writes back is the restriction to its rows of ONE
  function of the three arrays the region finds, `y[b, hh, l, d] = Σ_s x[b, l, s] · W[hh, d, s] + bias[hh, 0, d]`; the 200 blocks
  tile the output [10, 4, 1000, 1024], and the array after the region is that function.
-/
import proofs.«136977_j46110768890297_2_alg».proof.Proof.FrameKernelIdeal
import proofs.«136977_j46110768890297_2_alg».proof.Proof.Spec
import Idealize.ShloMosaic.Lib.Pipeline.Value
import Idealize.ShloMosaic.Lib.ValueIdx

set_option maxRecDepth 16384

noncomputable section

open scoped BigOperators

namespace Cert.KernelIdeal.Proj2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected array as a function of the three arrays the region reads. -/
def G (a0 : S10x1000x4096.Idx → EReal) (a1 : S4x1024x4096.Idx → EReal) (a2 : S4x1x1024.Idx → EReal) :
    S10x4x1000x1024.Idx → EReal := fun j =>
  (∑ s : Fin 4096, a0 (ix3 (j 0) (j 2) s) * a1 (ix3 (j 1) (j 3) s)) + a2 (ix3 (j 1) (0 : Fin 1) (j 3))

/-- The index maps over the grid: the input block follows the output's batch and row tile, the weights and the bias
    its head; every other block coordinate is 0, and the output's block coordinates stay in range. -/
theorem idx_facts : ∀ t : Fin cfg2.N,
    win2_0.index t (0 : Fin 3) = win2_3.index t (0 : Fin 4) ∧ win2_0.index t (1 : Fin 3) = win2_3.index t (2 : Fin 4)
    ∧ win2_0.index t (2 : Fin 3) = 0
    ∧ win2_1.index t (0 : Fin 3) = win2_3.index t (1 : Fin 4) ∧ win2_1.index t (1 : Fin 3) = 0 ∧ win2_1.index t (2 : Fin 3) = 0
    ∧ win2_2.index t (0 : Fin 3) = win2_3.index t (1 : Fin 4) ∧ win2_2.index t (1 : Fin 3) = 0 ∧ win2_2.index t (2 : Fin 3) = 0
    ∧ win2_3.index t (0 : Fin 4) ≤ 9 ∧ win2_3.index t (1 : Fin 4) ≤ 3 ∧ win2_3.index t (2 : Fin 4) ≤ 4
    ∧ win2_3.index t (3 : Fin 4) = 0 :=
  (by decide +kernel : ∀ t : Fin grid2.N, _)

/-- Every (batch, head, row tile) is some point's output block. -/
theorem idx_onto : ∀ (q0 : Fin 10) (q1 : Fin 4) (q2 : Fin 5), ∃ t : Fin cfg2.N,
    win2_3.index t = ![q0.val, q1.val, q2.val, 0] :=
  (by decide +kernel : ∀ (q0 : Fin 10) (q1 : Fin 4) (q2 : Fin 5), ∃ t : Fin grid2.N, win2_3.index t = ![q0.val, q1.val, q2.val, 0])

end Cert.KernelIdeal.Proj2

end
-- ==== Proof.ProjBlocks2.lean ====
/-
  Projection 2: from the blocks the 200 points write back to the whole output array. What point (hh, b, lt) leaves
  in its output block is, entry (r, d), the dot product of input row (b, 200·lt + r) with weight row (hh, d) plus the bias
  entry (hh, 0, d): the block's rows are rows 200·lt … of slab (b, hh) of ONE function of the arrays the region finds.
  The blocks tile the output — the point covering (b, hh, l, ·) has row tile l / 200 — so the array ends at that function.
-/
import proofs.«136977_j46110768890297_2_alg».proof.Proof.ProjFacts2

set_option maxRecDepth 16384

noncomputable section

open scoped BigOperators

namespace Cert.KernelIdeal.Proj2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of its block, in terms of the three blocks it loads (supplied where the
    payload is read at an index). -/
abbrev PayloadAt : Prop :=
  ∀ (x0 : Vec Ideal S1x200x4096 .bf16) (x1 : Vec Ideal S1x1024x4096 .bf16) (x2 : Vec Ideal S1x1x1024 .f32) (r : Fin 200) (d : Fin 1024),
    k2_pay1 (F := Ideal) x0 x1 x2 (ix4 (0 : Fin 1) (0 : Fin 1) r d) = Cert.Attn.tileProj x0 x1 x2 r d

/-- What point `t` writes back is block `t` of `G` of the arrays the region finds. -/
theorem flushed_eq (hpay : PayloadAt) (c : Dev nD) (t : Fin cfg2.N) :
    (dat2 V c).flushed 3 t
      = ((cfg2.win 3).blk t).view.read (Elt Ideal) (G (V c main_v0) (V c main_v3) (V c main_v6)) := by
  show (cfg2.win 3).cut (grid2.coords t) ((dat2 V c).after 3 t) = _
  rw [after2_3]
  unfold out2_3
  rw [View.canon_unit_zero hz4]
  simp only [View.ld_unit_zero (S := S1x200x4096) hz3, View.ld_unit_zero (S := S1x1024x4096) hz3,
    View.ld_unit_zero (S := S1x1x1024) hz3]
  obtain ⟨e00, e01, e02, e10, e11, e12, e20, e21, e22, b0, b1, b2, e33⟩ := idx_facts t
  funext j
  obtain ⟨z0, z1, r, d, rfl⟩ : ∃ (z0 z1 : Fin 1) (r : Fin 200) (d : Fin 1024), j = ix4 z0 z1 r d :=
    ⟨j 0, j 1, j 2, j 3, eq_ix4 j⟩
  obtain rfl : z0 = 0 := Subsingleton.elim _ _
  obtain rfl : z1 = 0 := Subsingleton.elim _ _
  refine (hpay (iblk2 V c 0 t) (iblk2 V c 1 t) (iblk2 V c 2 t) r d).trans ?_
  show Cert.Attn.tileProj (iblk2 V c 0 t) (iblk2 V c 1 t) (iblk2 V c 2 t) r d
    = G (V c main_v0) (V c main_v3) (V c main_v6) (((cfg2.win 3).blk t).view.emb (ix4 (0 : Fin 1) (0 : Fin 1) r d))
  unfold Cert.Attn.tileProj G
  have h0 : ∀ s : Fin 4096, iblk2 V c 0 t (ix3 (0 : Fin 1) r s)
      = (V c main_v0 : S10x1000x4096.Idx → EReal)
          (ix3 ((((cfg2.win 3).blk t).view.emb (ix4 (0 : Fin 1) (0 : Fin 1) r d)) 0)
            ((((cfg2.win 3).blk t).view.emb (ix4 (0 : Fin 1) (0 : Fin 1) r d)) 2) s) := fun s => by
    show (V c main_v0 : S10x1000x4096.Idx → EReal) (((cfg2.win 0).blk t).view.emb (ix3 (0 : Fin 1) r s)) = _
    refine congrArg (V c main_v0 : S10x1000x4096.Idx → EReal) ?_
    funext a; apply Fin.ext
    match a with
    | ⟨0, _⟩ => show win2_0.index t (0 : Fin 3) * 1 + 1 * 0 = win2_3.index t (0 : Fin 4) * 1 + 1 * 0; omega
    | ⟨1, _⟩ => show win2_0.index t (1 : Fin 3) * 200 + 1 * r.val = win2_3.index t (2 : Fin 4) * 200 + 1 * r.val; omega
    | ⟨2, _⟩ => show win2_0.index t (2 : Fin 3) * 4096 + 1 * s.val = s.val; omega
  have h1 : ∀ s : Fin 4096, iblk2 V c 1 t (ix3 (0 : Fin 1) d s)
      = (V c main_v3 : S4x1024x4096.Idx → EReal)
          (ix3 ((((cfg2.win 3).blk t).view.emb (ix4 (0 : Fin 1) (0 : Fin 1) r d)) 1)
            ((((cfg2.win 3).blk t).view.emb (ix4 (0 : Fin 1) (0 : Fin 1) r d)) 3) s) := fun s => by
    show (V c main_v3 : S4x1024x4096.Idx → EReal) (((cfg2.win 1).blk t).view.emb (ix3 (0 : Fin 1) d s)) = _
    refine congrArg (V c main_v3 : S4x1024x4096.Idx → EReal) ?_
    funext a; apply Fin.ext
    match a with
    | ⟨0, _⟩ => show win2_1.index t (0 : Fin 3) * 1 + 1 * 0 = win2_3.index t (1 : Fin 4) * 1 + 1 * 0; omega
    | ⟨1, _⟩ => show win2_1.index t (1 : Fin 3) * 1024 + 1 * d.val = win2_3.index t (3 : Fin 4) * 1024 + 1 * d.val; omega
    | ⟨2, _⟩ => show win2_1.index t (2 : Fin 3) * 4096 + 1 * s.val = s.val; omega
  have h2 : iblk2 V c 2 t (ix3 (0 : Fin 1) (0 : Fin 1) d)
      = (V c main_v6 : S4x1x1024.Idx → EReal)
          (ix3 ((((cfg2.win 3).blk t).view.emb (ix4 (0 : Fin 1) (0 : Fin 1) r d)) 1) (0 : Fin 1)
            ((((cfg2.win 3).blk t).view.emb (ix4 (0 : Fin 1) (0 : Fin 1) r d)) 3)) := by
    show (V c main_v6 : S4x1x1024.Idx → EReal) (((cfg2.win 2).blk t).view.emb (ix3 (0 : Fin 1) (0 : Fin 1) d)) = _
    refine congrArg (V c main_v6 : S4x1x1024.Idx → EReal) ?_
    funext a; apply Fin.ext
    match a with
    | ⟨0, _⟩ => show win2_2.index t (0 : Fin 3) * 1 + 1 * 0 = win2_3.index t (1 : Fin 4) * 1 + 1 * 0; omega
    | ⟨1, _⟩ => show win2_2.index t (1 : Fin 3) * 1 + 1 * 0 = 0; omega
    | ⟨2, _⟩ => show win2_2.index t (2 : Fin 3) * 1024 + 1 * d.val = win2_3.index t (3 : Fin 4) * 1024 + 1 * d.val; omega
  simp only [h0, h1, h2]

/-- An index of the output is in point `t`'s block iff each coordinate is in the block's range on its axis. -/
theorem mem_blk (t : Fin cfg2.N) (i : S10x4x1000x1024.Idx) :
    i ∈ ((cfg2.win 3).blk t).view.set ↔ ∀ a : Fin 4, win2_3.index t a * S1x1x200x1024.size a ≤ (i a).val
      ∧ (i a).val < win2_3.index t a * S1x1x200x1024.size a + S1x1x200x1024.size a := by
  show i ∈ ((View.whole main_v9).slice (win2_3.rect t)).set ↔ _
  rw [View.set_slice_whole, Rect.mem_set_unit]
  exact Iff.rfl

/-- The blocks tile the output: entry (b, hh, l, d) is in the block of the point with batch b, head hh, row tile l / 200. -/
theorem cover (i : S10x4x1000x1024.Idx) :
    ∃ t : Fin cfg2.N, (cfg2.win 3).flush t = true ∧ i ∈ ((cfg2.win 3).blk t).view.set := by
  have hi0 : (i 0).val < 10 := (i 0).isLt
  have hi1 : (i 1).val < 4 := (i 1).isLt
  have hi2 : (i 2).val < 1000 := (i 2).isLt
  have hi3 : (i 3).val < 1024 := (i 3).isLt
  obtain ⟨t, ht⟩ := idx_onto ⟨(i 0).val, hi0⟩ ⟨(i 1).val, hi1⟩ ⟨(i 2).val / 200, by omega⟩
  have q0 : win2_3.index t (0 : Fin 4) = (i 0).val := congrFun ht 0
  have q1 : win2_3.index t (1 : Fin 4) = (i 1).val := congrFun ht 1
  have q2 : win2_3.index t (2 : Fin 4) = (i 2).val / 200 := congrFun ht 2
  have q3 : win2_3.index t (3 : Fin 4) = 0 := congrFun ht 3
  refine ⟨t, flush2_3 t, ?_⟩
  rw [mem_blk]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 1 ≤ (i 1).val ∧ (i 1).val < win2_3.index t (1 : Fin 4) * 1 + 1; omega
  | ⟨2, _⟩ => show win2_3.index t (2 : Fin 4) * 200 ≤ (i 2).val ∧ (i 2).val < win2_3.index t (2 : Fin 4) * 200 + 200; omega
  | ⟨3, _⟩ => show win2_3.index t (3 : Fin 4) * 1024 ≤ (i 3).val ∧ (i 3).val < win2_3.index t (3 : Fin 4) * 1024 + 1024; omega

/-- The output array after the region: `G` of the arrays the region found. -/
theorem final (hpay : PayloadAt) (c : Dev nD) :
    (dat2 V c).arrAt 3 cfg2.N = G (V c main_v0) (V c main_v3) (V c main_v6) :=
  (dat2 V c).arrAt_eq_of_cover 3 _ (fun t _ => flushed_eq V hpay c t) cover

end Cert.KernelIdeal.Proj2

end
-- ==== Proof.AttnFacts.lean ====
/-
  The attention call's index maps. The grid is (batch, head, query tile): point (b, hh, qt) reads rows 200·qt … 200·qt + 199
  of the queries' slab (b, hh), all 1000 rows of the keys' and of the values' slab (b, hh), and writes rows 200·qt … and
  columns 1024·hh … 1024·hh + 1023 of batch b of the result [10, 1000, 4096]. The body reads the grid's last coordinate
  (the query tile), which is the output block's row-tile index.
-/
import proofs.«136977_j46110768890297_2_alg».proof.Proof.FrameKernelIdeal
import proofs.«136977_j46110768890297_2_alg».proof.Proof.Spec
import Idealize.ShloMosaic.Lib.Pipeline.Value
import Idealize.ShloMosaic.Lib.ValueIdx

set_option maxRecDepth 16384

noncomputable section

open scoped BigOperators

namespace Cert.KernelIdeal.Attn3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid: the query block follows the output's batch, row tile and head; the key and value
    blocks its batch and head; every other block coordinate is 0; the output's block coordinates stay in range; and
    the grid coordinate the body reads is the output's row tile. -/
theorem idx_facts : ∀ t : Fin cfg3.N,
    win3_0.index t (0 : Fin 4) = win3_3.index t (0 : Fin 3) ∧ win3_0.index t (1 : Fin 4) = win3_3.index t (2 : Fin 3)
    ∧ win3_0.index t (2 : Fin 4) = win3_3.index t (1 : Fin 3) ∧ win3_0.index t (3 : Fin 4) = 0
    ∧ win3_1.index t (0 : Fin 4) = win3_3.index t (0 : Fin 3) ∧ win3_1.index t (1 : Fin 4) = win3_3.index t (2 : Fin 3)
    ∧ win3_1.index t (2 : Fin 4) = 0 ∧ win3_1.index t (3 : Fin 4) = 0
    ∧ win3_2.index t (0 : Fin 4) = win3_3.index t (0 : Fin 3) ∧ win3_2.index t (1 : Fin 4) = win3_3.index t (2 : Fin 3)
    ∧ win3_2.index t (2 : Fin 4) = 0 ∧ win3_2.index t (3 : Fin 4) = 0
    ∧ win3_3.index t (0 : Fin 3) ≤ 9 ∧ win3_3.index t (1 : Fin 3) ≤ 4 ∧ win3_3.index t (2 : Fin 3) ≤ 3
    ∧ ((grid3.coords t) 2).val = win3_3.index t (1 : Fin 3) :=
  (by decide +kernel : ∀ t : Fin grid3.N, _)

/-- Every (batch, row tile, head) is some point's output block. -/
theorem idx_onto : ∀ (q0 : Fin 10) (q1 : Fin 5) (q2 : Fin 4), ∃ t : Fin cfg3.N,
    win3_3.index t = ![q0.val, q1.val, q2.val] :=
  (by decide +kernel : ∀ (q0 : Fin 10) (q1 : Fin 5) (q2 : Fin 4), ∃ t : Fin grid3.N, win3_3.index t = ![q0.val, q1.val, q2.val])

end Cert.KernelIdeal.Attn3

end
-- ==== Proof.TileLemmas.lean ====
/-
  A grid point's formulas are the whole arrays' formulas on its rows.

  If a point's query block holds rows 200·qt … of slab (b, hh) of `q`, and its key and value blocks hold all rows of slab
  (b, hh) of `k` and `v`, then the block's row `r` of the attention tile is row `l = 200·qt + r` of the whole result: the
  mask compares a key row with `200·qt + r`, which is `l`; the scores, the row maximum and the final sum are the same
  sums over the same entries. Likewise a projection tile is the projection of the array rows the blocks hold. And the
  result array read at column `1024·hh + d` is head `hh`'s entry `d`.
-/
import proofs.«136977_j46110768890297_2_alg».proof.Proof.Spec

noncomputable section

open scoped BigOperators

namespace Cert.Attn

open Idealize.ShloMosaic Idealize.ShloMosaic.ValueIdx

/-- The attention tile on blocks that are restrictions of `q`, `k`, `v` is the result's entry at the block's row. -/
theorem tileAttn_eq (q k v : FVec Ideal ⟨4, ![10, 4, 1000, 1024]⟩ .f32) (b : Fin 10) (hh : Fin 4) (qt : ℕ)
    (r : Fin 200) (d : Fin 1024) (l : Fin 1000) (hl : l.val = qt * 200 + r.val)
    (x0 : (⟨4, ![1, 1, 200, 1024]⟩ : Shape).Idx → EReal) (x1 x2 : (⟨4, ![1, 1, 1000, 1024]⟩ : Shape).Idx → EReal)
    (hx0 : ∀ e : Fin 1024, x0 (ix4 (0 : Fin 1) (0 : Fin 1) r e) = q (ix4 b hh l e))
    (hx1 : ∀ (m : Fin 1000) (e : Fin 1024), x1 (ix4 (0 : Fin 1) (0 : Fin 1) m e) = k (ix4 b hh m e))
    (hx2 : ∀ m : Fin 1000, x2 (ix4 (0 : Fin 1) (0 : Fin 1) m d) = v (ix4 b hh m d)) :
    tileAttn qt x0 x1 x2 r d = attnAt q k v b hh l d := by
  have hm : ∀ m : Fin 1000, tileMasked qt x0 x1 r m = masked q k b hh l m := fun m => by
    unfold tileMasked masked score
    simp only [hx0, hx1, hl]
  unfold tileAttn attnAt rowMax
  simp only [hm, hx2]

/-- The projection tile on blocks that are restrictions of the input, the weights and the bias. -/
theorem tileProj_eq (x : FVec Ideal ⟨3, ![10, 1000, 4096]⟩ .f32) (W : FVec Ideal ⟨3, ![4, 1024, 4096]⟩ .f32)
    (bias : FVec Ideal ⟨2, ![4, 1024]⟩ .f32) (b : Fin 10) (hh : Fin 4) (l : Fin 1000) (r : Fin 200) (d : Fin 1024)
    (x0 : (⟨3, ![1, 200, 4096]⟩ : Shape).Idx → EReal) (x1 : (⟨3, ![1, 1024, 4096]⟩ : Shape).Idx → EReal)
    (x2 : (⟨3, ![1, 1, 1024]⟩ : Shape).Idx → EReal)
    (hx0 : ∀ s : Fin 4096, x0 (ix3 (0 : Fin 1) r s) = x (ix3 b l s))
    (hx1 : ∀ s : Fin 4096, x1 (ix3 (0 : Fin 1) d s) = W (ix3 hh d s))
    (hx2 : x2 (ix3 (0 : Fin 1) (0 : Fin 1) d) = bias (ix2 hh d)) :
    tileProj x0 x1 x2 r d = projAt x W bias b hh l d := by
  unfold tileProj projAt
  simp only [hx0, hx1, hx2]

/-- The result array at column `1024·hh + d` is head `hh`'s entry `d`. -/
theorem attn_apply (q k v : FVec Ideal ⟨4, ![10, 4, 1000, 1024]⟩ .f32) (b : Fin 10) (l : Fin 1000) (hh : Fin 4) (d : Fin 1024)
    (col : Fin 4096) (hcol : col.val = hh.val * 1024 + d.val) :
    attn q k v (ix3 b l col) = attnAt q k v b hh l d := by
  have hd : d.val < 1024 := d.isLt
  have e1 : (⟨col.val / 1024, by have := col.isLt; omega⟩ : Fin 4) = hh := Fin.ext (by show col.val / 1024 = hh.val; omega)
  have e2 : (⟨col.val % 1024, Nat.mod_lt _ (by norm_num)⟩ : Fin 1024) = d := Fin.ext (by show col.val % 1024 = d.val; omega)
  show attnAt q k v b ⟨col.val / 1024, _⟩ l ⟨col.val % 1024, _⟩ = _
  rw [e1, e2]

end Cert.Attn

end
-- ==== Proof.AttnBlocks.lean ====
/-
  The attention call: from the blocks the 200 points write back to the whole result array. Point (b, hh, qt) holds rows
  200·qt … of the queries' slab (b, hh) and all rows of the keys' and values' slabs (b, hh); what it leaves in its output
  block at (r, d) is the attention tile's entry, which is the whole result's entry at row 200·qt + r and column
  1024·hh + d of batch b. So every block is the restriction of ONE function of the three projected arrays the region
  finds; the blocks tile the result [10, 1000, 4096] — entry (b, l, col) is in the block of the point with row tile l / 200
  and head col / 1024 — and the array ends at that function.
-/
import proofs.«136977_j46110768890297_2_alg».proof.Proof.AttnFacts
import proofs.«136977_j46110768890297_2_alg».proof.Proof.TileLemmas

set_option maxRecDepth 16384

noncomputable section

open scoped BigOperators

namespace Cert.KernelIdeal.Attn3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic at an entry of its block, in terms of the three blocks it loads and the grid position it
    reads (supplied where the payload is read at an index). -/
abbrev PayloadAt : Prop :=
  ∀ (i : grid3.Coords) (x0 : Vec Ideal S1x1x200x1024 .bf16) (x1 x2 : Vec Ideal S1x1x1000x1024 .bf16) (r : Fin 200) (d : Fin 1024),
    k3_pay1 (F := Ideal) i x0 x1 x2 (ix3 (0 : Fin 1) r d) = Cert.Attn.tileAttn (i 2).val x0 x1 x2 r d

/-- What point `t` writes back is block `t` of the attention of the three projected arrays the region finds. -/
theorem flushed_eq (hpay : PayloadAt) (c : Dev nD) (t : Fin cfg3.N) :
    (dat3 V c).flushed 3 t
      = ((cfg3.win 3).blk t).view.read (Elt Ideal) (Cert.Attn.attn (V c main_v7) (V c main_v8) (V c main_v9)) := by
  show (cfg3.win 3).cut (grid3.coords t) ((dat3 V c).after 3 t) = _
  rw [after3_3]
  unfold out3_3
  rw [View.canon_unit_zero hz3]
  simp only [View.ld_unit_zero (S := S1x1x200x1024) hz4, View.ld_unit_zero (S := S1x1x1000x1024) hz4]
  obtain ⟨e00, e01, e02, e03, e10, e11, e12, e13, e20, e21, e22, e23, b0, b1, b2, eqt⟩ := idx_facts t
  funext j
  obtain ⟨z0, r, d, rfl⟩ : ∃ (z0 : Fin 1) (r : Fin 200) (d : Fin 1024), j = ix3 z0 r d := ⟨j 0, j 1, j 2, eq_ix3 j⟩
  obtain rfl : z0 = 0 := Subsingleton.elim _ _
  refine (hpay (grid3.coords t) (iblk3 V c 0 t) (iblk3 V c 1 t) (iblk3 V c 2 t) r d).trans ?_
  have hr : r.val < 200 := r.isLt
  have hd : d.val < 1024 := d.isLt
  -- the array coordinates of the block's entry (r, d)
  obtain ⟨b, hb⟩ : ∃ b : Fin 10, b.val = win3_3.index t (0 : Fin 3) := ⟨⟨win3_3.index t (0 : Fin 3), by omega⟩, rfl⟩
  obtain ⟨hh, hhh⟩ : ∃ hh : Fin 4, hh.val = win3_3.index t (2 : Fin 3) := ⟨⟨win3_3.index t (2 : Fin 3), by omega⟩, rfl⟩
  obtain ⟨l, hl⟩ : ∃ l : Fin 1000, l.val = win3_3.index t (1 : Fin 3) * 200 + r.val := ⟨⟨win3_3.index t (1 : Fin 3) * 200 + r.val, by omega⟩, rfl⟩
  obtain ⟨col, hcol⟩ : ∃ col : Fin 4096, col.val = win3_3.index t (2 : Fin 3) * 1024 + d.val := ⟨⟨win3_3.index t (2 : Fin 3) * 1024 + d.val, by omega⟩, rfl⟩
  have hemb : ((cfg3.win 3).blk t).view.emb (ix3 (0 : Fin 1) r d) = ix3 b l col := by
    funext a; apply Fin.ext
    match a with
    | ⟨0, _⟩ => show win3_3.index t (0 : Fin 3) * 1 + 1 * 0 = b.val; omega
    | ⟨1, _⟩ => show win3_3.index t (1 : Fin 3) * 200 + 1 * r.val = l.val; omega
    | ⟨2, _⟩ => show win3_3.index t (2 : Fin 3) * 1024 + 1 * d.val = col.val; omega
  show Cert.Attn.tileAttn ((grid3.coords t) 2).val (iblk3 V c 0 t) (iblk3 V c 1 t) (iblk3 V c 2 t) r d
    = Cert.Attn.attn (V c main_v7) (V c main_v8) (V c main_v9) (((cfg3.win 3).blk t).view.emb (ix3 (0 : Fin 1) r d))
  rw [hemb, Cert.Attn.attn_apply (V c main_v7) (V c main_v8) (V c main_v9) b l hh d col (by omega)]
  refine Cert.Attn.tileAttn_eq (V c main_v7) (V c main_v8) (V c main_v9) b hh ((grid3.coords t) 2).val r d l (by omega)
    (iblk3 V c 0 t) (iblk3 V c 1 t) (iblk3 V c 2 t) ?_ ?_ ?_
  · intro e
    show (V c main_v7 : S10x4x1000x1024.Idx → EReal) (((cfg3.win 0).blk t).view.emb (ix4 (0 : Fin 1) (0 : Fin 1) r e)) = (V c main_v7 : S10x4x1000x1024.Idx → EReal) (ix4 b hh l e)
    refine congrArg (V c main_v7 : S10x4x1000x1024.Idx → EReal) ?_
    funext a; apply Fin.ext
    match a with
    | ⟨0, _⟩ => show win3_0.index t (0 : Fin 4) * 1 + 1 * 0 = b.val; omega
    | ⟨1, _⟩ => show win3_0.index t (1 : Fin 4) * 1 + 1 * 0 = hh.val; omega
    | ⟨2, _⟩ => show win3_0.index t (2 : Fin 4) * 200 + 1 * r.val = l.val; omega
    | ⟨3, _⟩ => show win3_0.index t (3 : Fin 4) * 1024 + 1 * e.val = e.val; omega
  · intro mm e
    show (V c main_v8 : S10x4x1000x1024.Idx → EReal) (((cfg3.win 1).blk t).view.emb (ix4 (0 : Fin 1) (0 : Fin 1) mm e)) = (V c main_v8 : S10x4x1000x1024.Idx → EReal) (ix4 b hh mm e)
    refine congrArg (V c main_v8 : S10x4x1000x1024.Idx → EReal) ?_
    funext a; apply Fin.ext
    match a with
    | ⟨0, _⟩ => show win3_1.index t (0 : Fin 4) * 1 + 1 * 0 = b.val; omega
    | ⟨1, _⟩ => show win3_1.index t (1 : Fin 4) * 1 + 1 * 0 = hh.val; omega
    | ⟨2, _⟩ => show win3_1.index t (2 : Fin 4) * 1000 + 1 * mm.val = mm.val; omega
    | ⟨3, _⟩ => show win3_1.index t (3 : Fin 4) * 1024 + 1 * e.val = e.val; omega
  · intro mm
    show (V c main_v9 : S10x4x1000x1024.Idx → EReal) (((cfg3.win 2).blk t).view.emb (ix4 (0 : Fin 1) (0 : Fin 1) mm d)) = (V c main_v9 : S10x4x1000x1024.Idx → EReal) (ix4 b hh mm d)
    refine congrArg (V c main_v9 : S10x4x1000x1024.Idx → EReal) ?_
    funext a; apply Fin.ext
    match a with
    | ⟨0, _⟩ => show win3_2.index t (0 : Fin 4) * 1 + 1 * 0 = b.val; omega
    | ⟨1, _⟩ => show win3_2.index t (1 : Fin 4) * 1 + 1 * 0 = hh.val; omega
    | ⟨2, _⟩ => show win3_2.index t (2 : Fin 4) * 1000 + 1 * mm.val = mm.val; omega
    | ⟨3, _⟩ => show win3_2.index t (3 : Fin 4) * 1024 + 1 * d.val = d.val; omega

/-- An index of the result is in point `t`'s block iff each coordinate is in the block's range on its axis. -/
theorem mem_blk (t : Fin cfg3.N) (i : S10x1000x4096.Idx) :
    i ∈ ((cfg3.win 3).blk t).view.set ↔ ∀ a : Fin 3, win3_3.index t a * S1x200x1024.size a ≤ (i a).val
      ∧ (i a).val < win3_3.index t a * S1x200x1024.size a + S1x200x1024.size a := by
  show i ∈ ((View.whole main_v10).slice (win3_3.rect t)).set ↔ _
  rw [View.set_slice_whole, Rect.mem_set_unit]
  exact Iff.rfl

/-- The blocks tile the result: entry (b, l, col) is in the block of the point with batch b, row tile l / 200, head col / 1024. -/
theorem cover (i : S10x1000x4096.Idx) :
    ∃ t : Fin cfg3.N, (cfg3.win 3).flush t = true ∧ i ∈ ((cfg3.win 3).blk t).view.set := by
  have hi0 : (i 0).val < 10 := (i 0).isLt
  have hi1 : (i 1).val < 1000 := (i 1).isLt
  have hi2 : (i 2).val < 4096 := (i 2).isLt
  obtain ⟨t, ht⟩ := idx_onto ⟨(i 0).val, hi0⟩ ⟨(i 1).val / 200, by omega⟩ ⟨(i 2).val / 1024, by omega⟩
  have q0 : win3_3.index t (0 : Fin 3) = (i 0).val := congrFun ht 0
  have q1 : win3_3.index t (1 : Fin 3) = (i 1).val / 200 := congrFun ht 1
  have q2 : win3_3.index t (2 : Fin 3) = (i 2).val / 1024 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 200 ≤ (i 1).val ∧ (i 1).val < win3_3.index t (1 : Fin 3) * 200 + 200; omega
  | ⟨2, _⟩ => show win3_3.index t (2 : Fin 3) * 1024 ≤ (i 2).val ∧ (i 2).val < win3_3.index t (2 : Fin 3) * 1024 + 1024; omega

/-- The result array after the region: the attention of the three projected arrays the region found. -/
theorem final (hpay : PayloadAt) (c : Dev nD) :
    (dat3 V c).arrAt 3 cfg3.N = Cert.Attn.attn (V c main_v7) (V c main_v8) (V c main_v9) :=
  (dat3 V c).arrAt_eq_of_cover 3 _ (fun t _ => flushed_eq V hpay c t) cover

end Cert.KernelIdeal.Attn3

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Payloads.lean ====
/-
  The kernel bodies' arithmetic, read at one entry of what each body stores, on the extended reals.

  A projection body stores, at row r and column d of its block, the dot product over the 4096 input coordinates of row r of
  the input block with row d of the head's weight block, plus the head's bias at d.  The attention body stores, at row r
  and column d, the sum over the 1000 key rows m of (the masked score of query row r against key row m, minus the maximum
  of that row's masked scores) times the value rows' entry (m, d); the masked score is the dot product over the 1024 head
  coordinates times 1/32 when key row m is not after the query row (row 200 · qt + r of the array, qt the block's number
  along the query axis), and -∞ otherwise.  On the extended reals the format changes are the identity, the casts only add or drop
  unit axes, a product accumulated onto the zero array is the plain sum of products, and the row maximum taken from -∞
  is the fold of max: each body's stored value is the specification's formula, term by term, with no algebraic law used.
-/
import proofs.«136977_j46110768890297_2_alg».proof.Proof.Gen.KernelIdeal.Skeleton
import proofs.«136977_j46110768890297_2_alg».proof.Proof.Spec
import proofs.«136977_j46110768890297_2_alg».proof.Proof.LibMatmulRows
import proofs.«136977_j46110768890297_2_alg».proof.Proof.LibPlainMatmul
import proofs.«136977_j46110768890297_2_alg».proof.Proof.LibRowMax
import proofs.«136977_j46110768890297_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable {α : Type}

/-! ## Unit axes of a block, read at an entry -/

/-- An [a, b] array seen as [1, 1, a, b] reads, at (0, 0, i, j), its entry (i, j). -/
theorem cast_ab_11ab_apply {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-- A [1, 1, a, b] array seen as [a, b] reads, at (i, j), its entry (0, 0, i, j). -/
theorem cast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The projection bodies -/

/-- A projection body's stored value at row `r`, column `d`: row `r` of the input block against row `d` of the head's
    weights, plus the head's bias at `d`. The format changes are the identity on the extended reals, the casts only
    add or drop unit axes, and the product onto the zero array is the row-by-row sum. -/
theorem proj0 (x0 : Vec Ideal S1x200x4096 .bf16) (x1 : Vec Ideal S1x1024x4096 .bf16) (x2 : Vec Ideal S1x1x1024 .f32) (r : Fin 200) (d : Fin 1024) :
    k0_pay1 (F := Ideal) x0 x1 x2 (ix4 (0 : Fin 1) (0 : Fin 1) r d) = Cert.Attn.tileProj x0 x1 x2 r d := by
  unfold k0_pay1
  refine (cast_ab_11ab_apply _ shapeCasts_S200x1024_S1x1x200x1024 r d).trans ?_
  rw [truncf_apply, addf_apply]
  unfold Cert.Attn.tileProj
  congr 1
  · refine (Cert.MatmulRows.zero_acc_apply dot_S200x4096_S1024x4096_S200x1024_1_1_0_0_n_n_wf none _ _ r d).trans ?_
    refine Finset.sum_congr rfl fun s _ => ?_
    rw [shapeCast_1ab_ab_apply, shapeCast_1ab_ab_apply]
  · refine (broadcastTo_1b_ab_apply _ broadcasts_S1x1024_S200x1024 r d).trans ?_
    exact shapeCast_1ab_ab_apply x2 shapeCasts_S1x1x1024_S1x1024 (0 : Fin 1) d

/-- The second projection body is the same term. -/
theorem proj1 (x0 : Vec Ideal S1x200x4096 .bf16) (x1 : Vec Ideal S1x1024x4096 .bf16) (x2 : Vec Ideal S1x1x1024 .f32) (r : Fin 200) (d : Fin 1024) :
    k1_pay1 (F := Ideal) x0 x1 x2 (ix4 (0 : Fin 1) (0 : Fin 1) r d) = Cert.Attn.tileProj x0 x1 x2 r d :=
  proj0 x0 x1 x2 r d

/-- The third projection body is the same term. -/
theorem proj2 (x0 : Vec Ideal S1x200x4096 .bf16) (x1 : Vec Ideal S1x1024x4096 .bf16) (x2 : Vec Ideal S1x1x1024 .f32) (r : Fin 200) (d : Fin 1024) :
    k2_pay1 (F := Ideal) x0 x1 x2 (ix4 (0 : Fin 1) (0 : Fin 1) r d) = Cert.Attn.tileProj x0 x1 x2 r d :=
  proj0 x0 x1 x2 r d

/-! ## The causal mask's word -/

/-- A natural number below 2³¹, as a 32-bit word read signed, is itself. -/
theorem word_toInt (k : ℕ) (hk : k < 2147483648) : (BitVec.ofNat 32 k).toInt = (k : ℤ) := by
  have h1 : (BitVec.ofNat 32 k).toNat = k := by
    rw [BitVec.toNat_ofNat]
    exact Nat.mod_eq_of_lt (by omega)
  rw [BitVec.toInt_eq_toNat_of_lt (by rw [h1]; omega), h1]

/-- The mask's condition at (r, m) for the block number `q` along the query axis: the signed comparison
    `q · 200 + r ≥ m` of 32-bit words is the comparison of the naturals, none of which reaches 2³¹. -/
theorem mask_word (q : ℕ) (hq : q < 5) (r : Fin 200) (m : Fin 1000) :
    IntOp.cmpi .sge (IntOp.addi (Scalar.muli (BitVec.ofNat 32 q) 200#32) (BitVec.ofNat 32 r.val)) (BitVec.ofNat 32 m.val)
      = if m.val ≤ q * 200 + r.val then 1#1 else 0#1 := by
  have hr := r.isLt
  have hm := m.isLt
  have hx : IntOp.addi (Scalar.muli (BitVec.ofNat 32 q) 200#32) (BitVec.ofNat 32 r.val) = BitVec.ofNat 32 (q * 200 + r.val) := by
    show BitVec.ofNat 32 q * BitVec.ofNat 32 200 + BitVec.ofNat 32 r.val = _
    rw [BitVec.ofNat_mul_ofNat, BitVec.ofNat_add_ofNat]
  rw [hx]
  show BitVec.ofBool ((BitVec.ofNat 32 m.val).sle (BitVec.ofNat 32 (q * 200 + r.val))) = _
  rw [BitVec.sle_eq_decide, word_toInt _ (by omega), word_toInt _ (by omega)]
  by_cases h : m.val ≤ q * 200 + r.val
  · rw [if_pos h, decide_eq_true (by exact_mod_cast h)]
    rfl
  · rw [if_neg h, decide_eq_false (by exact_mod_cast h)]
    rfl

/-- The masked scores at (r, m): the score times 1/32 where key row `m` is not after query row `q · 200 + r`, and -∞
    elsewhere. -/
theorem masked_apply (q : ℕ) (hq : q < 5) (sc : FVec Ideal S200x1000 .f32) (r : Fin 200) (m : Fin 1000) :
    select (cmpi .sge (addi (broadcast S200x1000 (Scalar.muli (BitVec.ofNat 32 q) 200#32))
              (iota .tc S200x1000 32 [0] iota_S200x1000_d0_w32)) (iota .tc S200x1000 32 [1] iota_S200x1000_d1_w32))
        (mulf sc (broadcast S200x1000 (FloatOps.ofBits (F := Ideal) .f32 0x3D000000#32)))
        (broadcast S200x1000 (FloatOps.ofBits (F := Ideal) .f32 0xFF800000#32)) (ix2 r m)
      = if m.val ≤ q * 200 + r.val then sc (ix2 r m) * Ideal.ofBits .f32 0x3D000000#32
        else Ideal.ofBits .f32 0xFF800000#32 := by
  rw [select_apply]
  have hc : cmpi .sge (addi (broadcast S200x1000 (Scalar.muli (BitVec.ofNat 32 q) 200#32))
              (iota .tc S200x1000 32 [0] iota_S200x1000_d0_w32)) (iota .tc S200x1000 32 [1] iota_S200x1000_d1_w32) (ix2 r m)
      = if m.val ≤ q * 200 + r.val then 1#1 else 0#1 := by
    show IntOp.cmpi .sge (IntOp.addi _ (iota .tc S200x1000 32 [0] iota_S200x1000_d0_w32 (ix2 r m)))
        (iota .tc S200x1000 32 [1] iota_S200x1000_d1_w32 (ix2 r m)) = _
    rw [iota_single_apply, iota_single_apply]
    exact mask_word q hq r m
  rw [hc]
  by_cases h : m.val ≤ q * 200 + r.val
  · rw [if_pos h, if_pos h, select_one]
    rfl
  · rw [if_neg h, if_neg h, select_zero]
    rfl

/-! ## The attention body -/

/-- The scores before scaling at (r, m): query row `r` against key row `m` over the 1024 head coordinates. -/
theorem scores_apply (x0 : Vec Ideal S1x1x200x1024 .bf16) (x1 : Vec Ideal S1x1x1000x1024 .bf16) (r : Fin 200) (m : Fin 1000) :
    matmul (F := Ideal) dot_S200x1024_S1000x1024_S200x1000_1_1_0_0_n_n none
        (shapeCast S200x1024 x0 shapeCasts_S1x1x200x1024_S200x1024 : FVec Ideal S200x1024 .bf16)
        (shapeCast S1000x1024 x1 shapeCasts_S1x1x1000x1024_S1000x1024 : FVec Ideal S1000x1024 .bf16)
        (constant (F := Ideal) S200x1000 .f32 0x00000000#32) (ix2 r m)
      = ∑ e : Fin 1024, x0 (ix4 (0 : Fin 1) (0 : Fin 1) r e) * x1 (ix4 (0 : Fin 1) (0 : Fin 1) m e) := by
  refine (Cert.MatmulRows.zero_acc_apply dot_S200x1024_S1000x1024_S200x1000_1_1_0_0_n_n_wf none _ _ r m).trans ?_
  refine Finset.sum_congr rfl fun e _ => ?_
  rw [cast_11ab_ab_apply, cast_11ab_ab_apply]

/-- The body's masked scores at (r, m) are the specification's, for the block number `i 2` along the query axis. -/
theorem masked_entry (i : grid3.Coords) (x0 : Vec Ideal S1x1x200x1024 .bf16) (x1 : Vec Ideal S1x1x1000x1024 .bf16)
    (r : Fin 200) (m : Fin 1000) :
    select (cmpi .sge (addi (broadcast S200x1000 (Scalar.muli (BitVec.ofNat 32 (i 2).val) 200#32))
              (iota .tc S200x1000 32 [0] iota_S200x1000_d0_w32)) (iota .tc S200x1000 32 [1] iota_S200x1000_d1_w32))
        (mulf (matmul (F := Ideal) dot_S200x1024_S1000x1024_S200x1000_1_1_0_0_n_n none
                (shapeCast S200x1024 x0 shapeCasts_S1x1x200x1024_S200x1024 : FVec Ideal S200x1024 .bf16)
                (shapeCast S1000x1024 x1 shapeCasts_S1x1x1000x1024_S1000x1024 : FVec Ideal S1000x1024 .bf16)
                (constant (F := Ideal) S200x1000 .f32 0x00000000#32))
          (broadcast S200x1000 (FloatOps.ofBits (F := Ideal) .f32 0x3D000000#32)))
        (broadcast S200x1000 (FloatOps.ofBits (F := Ideal) .f32 0xFF800000#32)) (ix2 r m)
      = Cert.Attn.tileMasked (i 2).val x0 x1 r m := by
  refine (masked_apply (i 2).val (i 2).isLt _ r m).trans ?_
  rw [scores_apply]
  rfl

/-- The attention body's stored value at row `r`, column `d`: the sum over the key rows of the masked scores of row
    `r`, each less the row's maximum, against column `d` of the value rows. -/
theorem attn3 (i : grid3.Coords) (x0 : Vec Ideal S1x1x200x1024 .bf16) (x1 x2 : Vec Ideal S1x1x1000x1024 .bf16) (r : Fin 200) (d : Fin 1024) :
    k3_pay1 (F := Ideal) i x0 x1 x2 (ix3 (0 : Fin 1) r d) = Cert.Attn.tileAttn (i 2).val x0 x1 x2 r d := by
  unfold k3_pay1
  refine (shapeCast_ab_1ab_apply _ shapeCasts_S200x1024_S1x200x1024 (0 : Fin 1) r d).trans ?_
  refine (Cert.PlainMatmul.zero_acc_apply dot_S200x1000_S1000x1024_S200x1024_1_0_0_1_n_n_wf none _ _ r d).trans ?_
  unfold Cert.Attn.tileAttn
  refine Finset.sum_congr rfl fun m _ => ?_
  refine congrArg₂ (· * ·) ?_ (cast_11ab_ab_apply x2 shapeCasts_S1x1x1000x1024_S1000x1024 m d)
  rw [truncf_apply, subf_apply]
  refine congrArg₂ (· - ·) (masked_entry i x0 x1 r m) ?_
  refine (Cert.Keepdims.column_repeat_apply _ broadcasts_S200x1_S200x1000 r m).trans ?_
  refine (Cert.Keepdims.column_cast_apply _ shapeCasts_S200_S200x1 r).trans ?_
  refine (Cert.RowMax.max_over_columns_apply _ reduces_S200x1000_S200 _ _ r).trans ?_
  exact Finset.fold_congr fun m' _ => masked_entry i x0 x1 r m'

end Cert.KernelIdeal.Payload

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.ProjSpec.lean ====
/-
  The projected array as one function of the three arrays a projection region reads is the specification's projection.

  A region reads the bias as a [4, 1, 1024] array, the [4, 1024] bias with a unit axis put in the middle; that cast moves
  no entry, so its entry (hh, 0, d) is the bias at (hh, d), and the two formulas agree term by term: at (b, hh, l, d) the
  dot product over the 4096 input coordinates of input row (b, l) with weight row (hh, d), plus the bias at (hh, d).
-/
import proofs.«136977_j46110768890297_2_alg».proof.Proof.ProjFacts0
import proofs.«136977_j46110768890297_2_alg».proof.Proof.ProjFacts1
import proofs.«136977_j46110768890297_2_alg».proof.Proof.ProjFacts2
import proofs.«136977_j46110768890297_2_alg».proof.Proof.LibUnitAxes

noncomputable section

open scoped BigOperators

namespace Cert.KernelIdeal.ProjSpec

open Cert.KernelIdeal Cert.KernelIdeal.Gen Idealize.ShloMosaic Idealize.ShloMosaic.ValueIdx

/-- The first projection: the region's whole-array function at the bias with its unit axis is the specification's. -/
theorem G0_eq (x : S10x1000x4096.Idx → EReal) (W : S4x1024x4096.Idx → EReal) (bias : S4x1024.Idx → EReal) :
    Cert.KernelIdeal.Proj0.G x W (shapeCast S4x1x1024 bias shapeCasts_S4x1024_S4x1x1024) = Cert.Attn.proj x W bias := by
  funext j
  obtain ⟨b, hh, l, d, rfl⟩ : ∃ (b : Fin 10) (hh : Fin 4) (l : Fin 1000) (d : Fin 1024), j = ix4 b hh l d :=
    ⟨j 0, j 1, j 2, j 3, eq_ix4 j⟩
  rw [Cert.Attn.proj_apply]
  unfold Cert.Attn.projAt Cert.KernelIdeal.Proj0.G
  show (∑ s : Fin 4096, x (ix3 b l s) * W (ix3 hh d s))
      + shapeCast S4x1x1024 bias shapeCasts_S4x1024_S4x1x1024 (ix3 hh (0 : Fin 1) d) = _
  rw [Cert.UnitAxes.cast_mid_apply]

/-- The second projection, likewise. -/
theorem G1_eq (x : S10x1000x4096.Idx → EReal) (W : S4x1024x4096.Idx → EReal) (bias : S4x1024.Idx → EReal) :
    Cert.KernelIdeal.Proj1.G x W (shapeCast S4x1x1024 bias shapeCasts_S4x1024_S4x1x1024) = Cert.Attn.proj x W bias := by
  funext j
  obtain ⟨b, hh, l, d, rfl⟩ : ∃ (b : Fin 10) (hh : Fin 4) (l : Fin 1000) (d : Fin 1024), j = ix4 b hh l d :=
    ⟨j 0, j 1, j 2, j 3, eq_ix4 j⟩
  rw [Cert.Attn.proj_apply]
  unfold Cert.Attn.projAt Cert.KernelIdeal.Proj1.G
  show (∑ s : Fin 4096, x (ix3 b l s) * W (ix3 hh d s))
      + shapeCast S4x1x1024 bias shapeCasts_S4x1024_S4x1x1024 (ix3 hh (0 : Fin 1) d) = _
  rw [Cert.UnitAxes.cast_mid_apply]

/-- The third projection, likewise. -/
theorem G2_eq (x : S10x1000x4096.Idx → EReal) (W : S4x1024x4096.Idx → EReal) (bias : S4x1024.Idx → EReal) :
    Cert.KernelIdeal.Proj2.G x W (shapeCast S4x1x1024 bias shapeCasts_S4x1024_S4x1x1024) = Cert.Attn.proj x W bias := by
  funext j
  obtain ⟨b, hh, l, d, rfl⟩ : ∃ (b : Fin 10) (hh : Fin 4) (l : Fin 1000) (d : Fin 1024), j = ix4 b hh l d :=
    ⟨j 0, j 1, j 2, j 3, eq_ix4 j⟩
  rw [Cert.Attn.proj_apply]
  unfold Cert.Attn.projAt Cert.KernelIdeal.Proj2.G
  show (∑ s : Fin 4096, x (ix3 b l s) * W (ix3 hh d s))
      + shapeCast S4x1x1024 bias shapeCasts_S4x1024_S4x1x1024 (ix3 hh (0 : Fin 1) d) = _
  rw [Cert.UnitAxes.cast_mid_apply]

end Cert.KernelIdeal.ProjSpec

end
-- ==== Proof.Chain.lean ====
/-
  From the launch memory to the result: the arrays each pallas_call finds, walked back to the seven arguments.

  The host stretch before the calls changes formats (the identity on extended reals) and reshapes each bias [4, 1024]
  to [4, 1, 1024]. A call writes only its output array: an array it reads through an input window, and every array it
  does not touch, is afterwards what it was before. So the three projection calls find the same input and their own
  weights and bias; the attention call finds the three projected arrays as the projection calls left them. Each
  projected array is the specification's projection of the arguments, and the result array is the specification's
  attention of those three.
-/
import proofs.«136977_j46110768890297_2_alg».proof.Proof.ProjBlocks0
import proofs.«136977_j46110768890297_2_alg».proof.Proof.ProjBlocks1
import proofs.«136977_j46110768890297_2_alg».proof.Proof.ProjBlocks2
import proofs.«136977_j46110768890297_2_alg».proof.Proof.AttnBlocks
import proofs.«136977_j46110768890297_2_alg».proof.Proof.Payloads
import proofs.«136977_j46110768890297_2_alg».proof.Proof.ProjSpec
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host stretch: what the first call finds -/

theorem V1_v0 (c : Dev nD) : (V1 m ρ c main_v0 : S10x1000x4096.Idx → EReal) = m ((c : Thread nD τ).loc main_arg0) := by
  dsimp only [V1, W1, hostOps0]; after_results; rfl
theorem V1_v1 (c : Dev nD) : (V1 m ρ c main_v1 : S4x1024x4096.Idx → EReal) = m ((c : Thread nD τ).loc main_arg1) := by
  dsimp only [V1, W1, hostOps0]; after_results; rfl
theorem V1_v2 (c : Dev nD) : (V1 m ρ c main_v2 : S4x1024x4096.Idx → EReal) = m ((c : Thread nD τ).loc main_arg3) := by
  dsimp only [V1, W1, hostOps0]; after_results; rfl
theorem V1_v3 (c : Dev nD) : (V1 m ρ c main_v3 : S4x1024x4096.Idx → EReal) = m ((c : Thread nD τ).loc main_arg5) := by
  dsimp only [V1, W1, hostOps0]; after_results; rfl
theorem V1_v4 (c : Dev nD) : (V1 m ρ c main_v4 : S4x1x1024.Idx → EReal)
    = shapeCast S4x1x1024 (m ((c : Thread nD τ).loc main_arg2)) shapeCasts_S4x1024_S4x1x1024 := by
  dsimp only [V1, W1, hostOps0]; after_results; rfl
theorem V1_v5 (c : Dev nD) : (V1 m ρ c main_v5 : S4x1x1024.Idx → EReal)
    = shapeCast S4x1x1024 (m ((c : Thread nD τ).loc main_arg4)) shapeCasts_S4x1024_S4x1x1024 := by
  dsimp only [V1, W1, hostOps0]; after_results; rfl
theorem V1_v6 (c : Dev nD) : (V1 m ρ c main_v6 : S4x1x1024.Idx → EReal)
    = shapeCast S4x1x1024 (m ((c : Thread nD τ).loc main_arg6)) shapeCasts_S4x1024_S4x1x1024 := by
  dsimp only [V1, W1, hostOps0]; after_results; rfl

/-! ## What the later calls find: an input window's array and an untouched array are as before -/

theorem V2_v0 (c : Dev nD) : V2 m ρ c main_v0 = V1 m ρ c main_v0 :=
  (W2_arr m ρ c 0).trans (((dat0 (V1 m ρ) c).arrAt_in 0 rfl cfg0.N).trans (A_eq0 (V1 m ρ) c 0))
theorem V2_v2 (c : Dev nD) : V2 m ρ c main_v2 = V1 m ρ c main_v2 := W2_of_ne m ρ c main_v2 (by decide)
theorem V2_v5 (c : Dev nD) : V2 m ρ c main_v5 = V1 m ρ c main_v5 := W2_of_ne m ρ c main_v5 (by decide)
theorem V2_v3 (c : Dev nD) : V2 m ρ c main_v3 = V1 m ρ c main_v3 := W2_of_ne m ρ c main_v3 (by decide)
theorem V2_v6 (c : Dev nD) : V2 m ρ c main_v6 = V1 m ρ c main_v6 := W2_of_ne m ρ c main_v6 (by decide)

theorem V3_v0 (c : Dev nD) : V3 m ρ c main_v0 = V2 m ρ c main_v0 :=
  (W3_arr m ρ c 0).trans (((dat1 (V2 m ρ) c).arrAt_in 0 rfl cfg1.N).trans (A_eq1 (V2 m ρ) c 0))
theorem V3_v3 (c : Dev nD) : V3 m ρ c main_v3 = V2 m ρ c main_v3 := W3_of_ne m ρ c main_v3 (by decide)
theorem V3_v6 (c : Dev nD) : V3 m ρ c main_v6 = V2 m ρ c main_v6 := W3_of_ne m ρ c main_v6 (by decide)

/-- The attention call finds the queries as the first projection call left them, -/
theorem V4_v7 (c : Dev nD) : V4 m ρ c main_v7 = (dat0 (V1 m ρ) c).arrAt 3 cfg0.N :=
  ((W4_of_ne m ρ c main_v7 (by decide)).trans (W3_of_ne m ρ c main_v7 (by decide))).trans (W2_arr m ρ c 3)
/-- the keys as the second left them, -/
theorem V4_v8 (c : Dev nD) : V4 m ρ c main_v8 = (dat1 (V2 m ρ) c).arrAt 3 cfg1.N :=
  (W4_of_ne m ρ c main_v8 (by decide)).trans (W3_arr m ρ c 3)
/-- and the values as the third left them. -/
theorem V4_v9 (c : Dev nD) : V4 m ρ c main_v9 = (dat2 (V3 m ρ) c).arrAt 3 cfg2.N :=
  W4_arr m ρ c 3

/-! ## The three projected arrays are the specification's projections of the arguments -/

theorem queries (c : Dev nD) : (V4 m ρ c main_v7 : S10x4x1000x1024.Idx → EReal)
    = Cert.Attn.proj (m ((c : Thread nD τ).loc main_arg0)) (m ((c : Thread nD τ).loc main_arg1)) (m ((c : Thread nD τ).loc main_arg2)) := by
  rw [V4_v7, Proj0.final (V1 m ρ) Payload.proj0 c, V1_v0, V1_v1, V1_v4]
  exact ProjSpec.G0_eq _ _ _

theorem keys (c : Dev nD) : (V4 m ρ c main_v8 : S10x4x1000x1024.Idx → EReal)
    = Cert.Attn.proj (m ((c : Thread nD τ).loc main_arg0)) (m ((c : Thread nD τ).loc main_arg3)) (m ((c : Thread nD τ).loc main_arg4)) := by
  rw [V4_v8, Proj1.final (V2 m ρ) Payload.proj1 c, V2_v0, V2_v2, V2_v5, V1_v0, V1_v2, V1_v5]
  exact ProjSpec.G1_eq _ _ _

theorem values (c : Dev nD) : (V4 m ρ c main_v9 : S10x4x1000x1024.Idx → EReal)
    = Cert.Attn.proj (m ((c : Thread nD τ).loc main_arg0)) (m ((c : Thread nD τ).loc main_arg5)) (m ((c : Thread nD τ).loc main_arg6)) := by
  rw [V4_v9, Proj2.final (V3 m ρ) Payload.proj2 c, V3_v0, V3_v3, V3_v6, V2_v0, V2_v3, V2_v6, V1_v0, V1_v3, V1_v6]
  exact ProjSpec.G2_eq _ _ _

/-- THE RESULT: what the attention call's write-backs leave is the specification's function of the seven arguments. -/
theorem result (c : Dev nD) : ((dat3 (V4 m ρ) c).arrAt 3 cfg3.N : S10x1000x4096.Idx → EReal)
    = Cert.Attn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Attn3.final (V4 m ρ) Payload.attn3 c, queries, keys, values]
  rfl

end Cert.KernelIdeal.Chain

end
-- ==== Proof.RefRead.lean ====
/-
  The reference's run, read one host operation at a time: this module only gathers the generated run of the
  reference's @main and its read-at-an-index lemmas, which the reference's side of the bridge is written over.
-/
import proofs.«136977_j46110768890297_2_alg».proof.Proof.Gen.ReferenceIdeal.Read
-- ==== Proof.LibAttnOps.lean ====
/-
  Reading the array operations of a batched attention at an entry, on the extended reals.

  * A batched product of rows against rows, [n, a, d] x [n, b, d] -> [n, a, b] (the einsum "tqd,tkd->tqk"), accumulated
    onto the zero array, is at (w, p, q) the sum over k of left (w, p, k) * right (w, q, k).
  * A batched product of rows against columns, [n, a, k] x [n, k, d] -> [n, a, d] ("tqk,tkd->tqd"), onto zero, is at
    (w, p, e) the sum over j of left (w, p, j) * right (w, j, e).
  * A maximum from -inf over the last axis of a three-axis array is at (w, p) the fold of max over the entries (w, p, j);
    the host's maximum over the last axis of a four-axis array is at (b, h, p) the fold of max from the initial value.
  * Merging the two leading axes [a, b, c] -> [a b, c], or splitting them back, moves no entry: row p b + q is (p, q).
  * A [1, b, c] array seen as [b, c], as [1, b, c] again and repeated to [a, b, c] reads at (w, i, j) its entry (0, i, j);
    a vector of c entries seen as [1, c] and repeated to [N, c] reads at (n, r) its entry r.
  * Four arrays [a, b, k] laid side by side along the last axis read at column n k + e the n-th array's column e.
  All extents are variables.
-/
import Idealize.ShloMosaic.Lib.ValueIdx
import Idealize.ShloMosaic.Lib.Pipeline.Value
import Idealize.ShloMosaic.PureOps.Ideal.Laws

noncomputable section

open scoped BigOperators

namespace Cert.AttnOps

open Idealize.ShloMosaic Idealize.ShloMosaic.ValueIdx

/-! ## The two batched products -/

/-- The dimension numbers of [n, a, d] x [n, b, d] -> [n, a, b]: batch axis 0, both last axes contracted. -/
abbrev dimsQK {n a b d : ℕ}
    (wf : DotDims.WF ⟨3, ![n, a, d]⟩ ⟨3, ![n, b, d]⟩ ⟨3, ![n, a, b]⟩ [2] [2] [1] [1] [0] [0]) :
    DotDims ⟨3, ![n, a, d]⟩ ⟨3, ![n, b, d]⟩ ⟨3, ![n, a, b]⟩ :=
  ⟨[2], [2], [1], [1], [0], [0], wf⟩

/-- Rows against rows, batched, onto zero: at (w, p, q) the dot product of row (w, p) of the left factor with row
    (w, q) of the right one. -/
theorem rows_rows_apply {n a b d : ℕ} {φ₁ φ₂ : FTy}
    (wf : DotDims.WF ⟨3, ![n, a, d]⟩ ⟨3, ![n, b, d]⟩ ⟨3, ![n, a, b]⟩ [2] [2] [1] [1] [0] [0])
    (prec : Option ContractPrecision) (L : FVec Ideal ⟨3, ![n, a, d]⟩ φ₁) (R : FVec Ideal ⟨3, ![n, b, d]⟩ φ₂)
    (w : Fin n) (p : Fin a) (q : Fin b) :
    FloatOps.matmul (dimsQK wf) prec L R (constant ⟨3, ![n, a, b]⟩ .f32 0x00000000#32) (ix3 w p q)
      = ∑ k : Fin d, L (ix3 w p k) * R (ix3 w q k) := by
  rw [Ideal.matmul_constant_zero_apply, ← Equiv.sum_comp (contrEquiv1 (dimsQK wf) d rfl rfl).symm]
  refine Finset.sum_congr rfl fun k _ => ?_
  have hk := contrEquiv1_symm_val (dimsQK wf) d rfl rfl k
  have el : (dimsQK wf).lhsIdx (ix3 w p q) ((contrEquiv1 (dimsQK wf) d rfl rfl).symm k) = ix3 w p k :=
    funext fun ax => Fin.ext (by
      match ax with
      | ⟨0, _⟩ => rfl
      | ⟨1, _⟩ => rfl
      | ⟨2, _⟩ => exact ((dimsQK wf).lhsIdx_val_of_single rfl _ _).trans hk)
  have er : (dimsQK wf).rhsIdx (ix3 w p q) ((contrEquiv1 (dimsQK wf) d rfl rfl).symm k) = ix3 w q k :=
    funext fun ax => Fin.ext (by
      match ax with
      | ⟨0, _⟩ => rfl
      | ⟨1, _⟩ => rfl
      | ⟨2, _⟩ => exact ((dimsQK wf).rhsIdx_val_of_single rfl _ _).trans hk)
  rw [el, er]

/-- The dimension numbers of [n, a, k] x [n, k, d] -> [n, a, d]: batch axis 0, the left's last axis against the right's
    middle one. -/
abbrev dimsAV {n a k d : ℕ}
    (wf : DotDims.WF ⟨3, ![n, a, k]⟩ ⟨3, ![n, k, d]⟩ ⟨3, ![n, a, d]⟩ [2] [1] [1] [2] [0] [0]) :
    DotDims ⟨3, ![n, a, k]⟩ ⟨3, ![n, k, d]⟩ ⟨3, ![n, a, d]⟩ :=
  ⟨[2], [1], [1], [2], [0], [0], wf⟩

/-- Rows against columns, batched, onto zero: at (w, p, e) the sum over j of left (w, p, j) * right (w, j, e). -/
theorem rows_cols_apply {n a k d : ℕ} {φ₁ φ₂ : FTy}
    (wf : DotDims.WF ⟨3, ![n, a, k]⟩ ⟨3, ![n, k, d]⟩ ⟨3, ![n, a, d]⟩ [2] [1] [1] [2] [0] [0])
    (prec : Option ContractPrecision) (L : FVec Ideal ⟨3, ![n, a, k]⟩ φ₁) (R : FVec Ideal ⟨3, ![n, k, d]⟩ φ₂)
    (w : Fin n) (p : Fin a) (e : Fin d) :
    FloatOps.matmul (dimsAV wf) prec L R (constant ⟨3, ![n, a, d]⟩ .f32 0x00000000#32) (ix3 w p e)
      = ∑ j : Fin k, L (ix3 w p j) * R (ix3 w j e) := by
  rw [Ideal.matmul_constant_zero_apply, ← Equiv.sum_comp (contrEquiv1 (dimsAV wf) k rfl rfl).symm]
  refine Finset.sum_congr rfl fun j _ => ?_
  have hj := contrEquiv1_symm_val (dimsAV wf) k rfl rfl j
  have el : (dimsAV wf).lhsIdx (ix3 w p e) ((contrEquiv1 (dimsAV wf) k rfl rfl).symm j) = ix3 w p j :=
    funext fun ax => Fin.ext (by
      match ax with
      | ⟨0, _⟩ => rfl
      | ⟨1, _⟩ => rfl
      | ⟨2, _⟩ => exact ((dimsAV wf).lhsIdx_val_of_single rfl _ _).trans hj)
  have er : (dimsAV wf).rhsIdx (ix3 w p e) ((contrEquiv1 (dimsAV wf) k rfl rfl).symm j) = ix3 w j e :=
    funext fun ax => Fin.ext (by
      match ax with
      | ⟨0, _⟩ => rfl
      | ⟨1, _⟩ => exact ((dimsAV wf).rhsIdx_val_of_single rfl _ _).trans hj
      | ⟨2, _⟩ => rfl)
  rw [el, er]

/-! ## Maxima over the last axis -/

/-- The maximum over the last axis of a three-axis array, from -inf: at (w, p) the fold of max over the entries
    (w, p, j). -/
theorem max_last3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = 0xFF800000#32) (w : Fin n0) (p : Fin n1) :
    multiReduction .maximumf [2] ⟨2, ![n0, n1]⟩ src 0xFF800000#32 h hφ hacc (ix2 w p)
      = (Finset.univ : Finset (Fin n2)).fold max (Ideal.ofBits .f32 0xFF800000#32) (fun j => src (ix3 w p j)) :=
  (Ideal.multiReduction_maximumf_single src 0xFF800000#32 h hφ hacc (ix2 w p)).trans
    (Finset.fold_congr fun j _ => congrArg src (funext fun ax => Fin.ext (by
      match ax with
      | ⟨0, _⟩ => rfl
      | ⟨1, _⟩ => rfl
      | ⟨2, _⟩ => rfl)))

/-- The reduced index (b, h, p) with coordinate j put back on the last axis is (b, h, p, j). -/
theorem lift_last4 {n0 n1 n2 n3 : ℕ} (h : (⟨4, ![n0, n1, n2, n3]⟩ : Shape).Reduces [3] ⟨3, ![n0, n1, n2]⟩)
    (b : Fin n0) (hh : Fin n1) (p : Fin n2) (j : Fin ((⟨4, ![n0, n1, n2, n3]⟩ : Shape).size 3)) :
    h.lift (ix3 b hh p) j = ix4 b hh p (⟨j.val, j.isLt⟩ : Fin n3) := by
  funext ax; apply Fin.ext
  fin_cases ax <;> rfl

/-- The host's reduction with a maximum body over the last axis of a four-axis array: at (b, h, p) the fold of max from
    the initial value over the entries (b, h, p, j). -/
theorem host_max_last4_apply {n0 n1 n2 n3 : ℕ} (x : FVec Ideal ⟨4, ![n0, n1, n2, n3]⟩ .f32)
    (init : FVec Ideal ⟨0, ![]⟩ .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩)
    (hu : 0 < (⟨0, ![]⟩ : Shape).numel) (b : Fin n0) (hh : Fin n1) (p : Fin n2) :
    Host.reduce FloatOps.maximumf x init h' hu (ix3 b hh p)
      = (Finset.univ : Finset (Fin n3)).fold max (init ix0) (fun j => x (ix4 b hh p j)) := by
  rw [Host.reduce_eq_fold_single FloatOps.maximumf x init h' h hu, eq_ix0 (Shape.Idx.first hu)]
  have hf : (x ∘ h.lift (ix3 b hh p)) = fun j : Fin n3 => x (ix4 b hh p j) :=
    funext fun j => congrArg x (lift_last4 h b hh p j)
  exact congrArg (fun f => Finset.fold max (init ix0) f (Finset.univ : Finset (Fin n3))) hf

/-! ## Re-laid arrays -/

variable {α : Type}

/-- [a, b, c] with its two leading axes merged into N = a b rows: row p b + q, column r, is the entry (p, q, r). -/
theorem merge_rows_apply {a b c N : ℕ} (v : (⟨3, ![a, b, c]⟩ : Shape).Idx → α)
    (h : (⟨3, ![a, b, c]⟩ : Shape).ShapeCasts ⟨2, ![N, c]⟩) (p : Fin a) (q : Fin b) (r : Fin c) (n : Fin N)
    (hn : n.val = p.val * b + q.val) :
    shapeCast ⟨2, ![N, c]⟩ v h (ix2 n r) = v (ix3 p q r) := by
  refine shapeCast_apply v h (ix2 n r) (ix3 p q r) ?_
  rw [Shape.rowMajor_val_two, Shape.rowMajor_val_three]
  show (p.val * b + q.val) * c + r.val = n.val * c + r.val
  rw [hn]

/-- [N, c] with its N = a b rows split into [a, b]: the entry (p, q, r) is row p b + q, column r. -/
theorem split_rows_apply {a b c N : ℕ} (v : (⟨2, ![N, c]⟩ : Shape).Idx → α)
    (h : (⟨2, ![N, c]⟩ : Shape).ShapeCasts ⟨3, ![a, b, c]⟩) (p : Fin a) (q : Fin b) (r : Fin c) (n : Fin N)
    (hn : n.val = p.val * b + q.val) :
    shapeCast ⟨3, ![a, b, c]⟩ v h (ix3 p q r) = v (ix2 n r) := by
  refine shapeCast_apply v h (ix3 p q r) (ix2 n r) ?_
  rw [Shape.rowMajor_val_two, Shape.rowMajor_val_three]
  show n.val * c + r.val = (p.val * b + q.val) * c + r.val
  rw [hn]

/-- A [1, b, c] array seen as [b, c], as [1, b, c] again, and repeated to [a, b, c]: at (w, i, j) its entry
    (0, i, j). -/
theorem slab_repeated_apply {a b c : ℕ} (v : (⟨3, ![1, b, c]⟩ : Shape).Idx → α)
    (h1 : (⟨3, ![1, b, c]⟩ : Shape).ShapeCasts ⟨2, ![b, c]⟩)
    (h2 : (⟨2, ![b, c]⟩ : Shape).ShapeCasts ⟨3, ![1, b, c]⟩)
    (h3 : (⟨3, ![1, b, c]⟩ : Shape).Broadcasts ⟨3, ![a, b, c]⟩) (w : Fin a) (i : Fin b) (j : Fin c) :
    broadcastTo ⟨3, ![a, b, c]⟩ (shapeCast ⟨3, ![1, b, c]⟩ (shapeCast ⟨2, ![b, c]⟩ v h1) h2) h3 (ix3 w i j)
      = v (ix3 (0 : Fin 1) i j) := by
  rw [shapeCast_shapeCast]
  refine broadcastTo_apply v h3 (ix3 w i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A vector of c entries seen as [1, c] and repeated to [N, c]: at (n, r) its entry r. -/
theorem row_repeated_apply {N c : ℕ} (v : (⟨1, ![c]⟩ : Shape).Idx → α)
    (h1 : (⟨1, ![c]⟩ : Shape).ShapeCasts ⟨2, ![1, c]⟩)
    (h2 : (⟨2, ![1, c]⟩ : Shape).Broadcasts ⟨2, ![N, c]⟩) (n : Fin N) (r : Fin c) :
    broadcastTo ⟨2, ![N, c]⟩ (shapeCast ⟨2, ![1, c]⟩ v h1) h2 (ix2 n r) = v (ix1 r) := by
  refine (broadcastTo_apply _ h2 (ix2 n r) (ix2 (0 : Fin 1) r) fun ax => ?_).trans ?_
  · match ax with
    | ⟨0, _⟩ => rfl
    | ⟨1, _⟩ =>
      show r.val = if c = 1 then 0 else r.val
      split
      · have := r.isLt; omega
      · rfl
  · refine shapeCast_apply v h1 (ix2 (0 : Fin 1) r) (ix1 r) ?_
    rw [Shape.rowMajor_val_one, Shape.rowMajor_val_two]
    show r.val = 0 * c + r.val
    omega

/-- Four [a, b, k] arrays side by side along the last axis: column n k + e of the result is column e of the n-th. -/
theorem join4_apply {a b k K : ℕ} (x0 x1 x2 x3 : (⟨3, ![a, b, k]⟩ : Shape).Idx → α)
    (h : Shape.Concatenates (([⟨⟨3, ![a, b, k]⟩, x0⟩, ⟨⟨3, ![a, b, k]⟩, x1⟩, ⟨⟨3, ![a, b, k]⟩, x2⟩, ⟨⟨3, ![a, b, k]⟩, x3⟩] :
      List ((s : Shape) × (s.Idx → α))).map (·.1)) ⟨3, ![a, b, K]⟩ 2)
    (p : Fin a) (q : Fin b) (e : Fin k) (c : Fin K) :
    (c.val = e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x0 (ix3 p q e))
    ∧ (c.val = k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x1 (ix3 p q e))
    ∧ (c.val = k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x2 (ix3 p q e))
    ∧ (c.val = k + k + k + e.val → concatenate ⟨3, ![a, b, K]⟩ 2 [⟨⟨3, ![a, b, k]⟩, x0⟩, ⟨⟨3, ![a, b, k]⟩, x1⟩, ⟨⟨3, ![a, b, k]⟩, x2⟩, ⟨⟨3, ![a, b, k]⟩, x3⟩] h (ix3 p q c) = x3 (ix3 p q e)) := by
  have off : ∀ bx : Fin (⟨3, ![a, b, k]⟩ : Shape).rank, bx.cast (rfl : (⟨3, ![a, b, k]⟩ : Shape).rank = (⟨3, ![a, b, K]⟩ : Shape).rank) ≠ (2 : Fin 3) →
      ((ix3 p q e : (⟨3, ![a, b, k]⟩ : Shape).Idx) bx).val = ((ix3 p q c : (⟨3, ![a, b, K]⟩ : Shape).Idx) (bx.cast rfl)).val := by
    intro bx hb
    match bx with
    | ⟨0, _⟩ => rfl
    | ⟨1, _⟩ => rfl
    | ⟨2, _⟩ => exact absurd rfl hb
  refine ⟨fun hc => ?_, fun hc => ?_, fun hc => ?_, fun hc => ?_⟩
  · exact concatenate_apply_piece 2 _ h (ix3 p q c) 0 (by simp) _ x0 rfl rfl 0 rfl (ix3 p q e) off
      (by show 0 + e.val = c.val; omega)
  · exact concatenate_apply_piece 2 _ h (ix3 p q c) 1 (by simp) _ x1 rfl rfl k (by simp) (ix3 p q e) off
      (by show k + e.val = c.val; omega)
  · exact concatenate_apply_piece 2 _ h (ix3 p q c) 2 (by simp) _ x2 rfl rfl (k + k) (by simp) (ix3 p q e) off
      (by show k + k + e.val = c.val; omega)
  · exact concatenate_apply_piece 2 _ h (ix3 p q c) 3 (by simp) _ x3 rfl rfl (k + k + k) (by simp [Nat.add_assoc]) (ix3 p q e) off
      (by show k + k + k + e.val = c.val; omega)

end Cert.AttnOps

end
-- ==== Proof.RefValue.lean ====
/-
  The reference program computes the specification's function.

  The reference projects the input three times (a contraction over the 4096 input coordinates, a transpose that brings
  the batch and the head to the front, and the head's bias added), takes the dot products of query rows against key
  rows over the 1024 head coordinates, scales them by 1/32, replaces the entries above the diagonal (key row after query
  row) by -∞, subtracts each row's maximum, multiplies the shifted scores against the value rows, and lays the four
  heads side by side on the last axis. Each stage is read here at an entry named by its coordinates and identified with
  the corresponding formula of the specification; the last lemma puts the stages together.
-/
import proofs.«136977_j46110768890297_2_alg».proof.Proof.RefRead
import proofs.«136977_j46110768890297_2_alg».proof.Proof.Spec
import proofs.«136977_j46110768890297_2_alg».proof.Proof.LibAttnOps

noncomputable section

open scoped BigOperators

namespace Cert.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The three projections -/

section Projection

variable (x : (⟨S10x1000x4096, .f32⟩ : BufTy).Contents (Elt Ideal)) (W : (⟨S4x1024x4096, .f32⟩ : BufTy).Contents (Elt Ideal))
  (bias : (⟨S4x1024, .f32⟩ : BufTy).Contents (Elt Ideal))

/-- The entry (b, hh, l, d) of the transposed product is the entry (hh, d, b, l) of the product, whose left factor is
    read on row (hh, d) of the weights … -/
theorem weight_index (b : Fin 10) (hh : Fin 4) (l : Fin 1000) (d : Fin 1024) (k : Fin 4096) :
    lidx_main_v0 (idx_main_v1 (ix4 b hh l d)) k = ix3 hh d k := by
  funext a; apply Fin.ext; fin_cases a <;> rfl

/-- … and whose right factor is read on row (b, l) of the input. -/
theorem input_index (b : Fin 10) (hh : Fin 4) (l : Fin 1000) (d : Fin 1024) (k : Fin 4096) :
    ridx_main_v0 (idx_main_v1 (ix4 b hh l d)) k = ix3 b l k := by
  funext a; apply Fin.ext; fin_cases a <;> rfl

/-- The bias repeated over the batch and the rows is read at (hh, d). -/
theorem bias_index (b : Fin 10) (hh : Fin 4) (l : Fin 1000) (d : Fin 1024) :
    idx_main_v2 (idx_main_v3 (ix4 b hh l d)) = ix2 hh d := by
  funext a; apply Fin.ext; fin_cases a <;> rfl

/-- The query projection at (b, hh, l, d). -/
theorem query_apply (b : Fin 10) (hh : Fin 4) (l : Fin 1000) (d : Fin 1024) :
    val_main_v4 (F := Ideal) x W bias (ix4 b hh l d) = Cert.Attn.projAt x W bias b hh l d := by
  rw [val_main_v4_apply, val_main_v1_apply, val_main_v0_apply, val_main_v3_apply, val_main_v2_apply, bias_index,
    Ideal.addf_def]
  unfold Cert.Attn.projAt
  refine congrArg (· + bias (ix2 hh d)) (Finset.sum_congr rfl fun k _ => ?_)
  rw [weight_index, input_index, mul_comm]

/-- The key projection is the same three operations on the key weights and bias. -/
theorem key_apply (b : Fin 10) (hh : Fin 4) (l : Fin 1000) (d : Fin 1024) :
    val_main_v9 (F := Ideal) x W bias (ix4 b hh l d) = Cert.Attn.projAt x W bias b hh l d := by
  rw [val_main_v9_apply, val_main_v6_apply, val_main_v5_apply, val_main_v8_apply, val_main_v7_apply]
  rw [show idx_main_v7 (idx_main_v8 (ix4 b hh l d)) = ix2 hh d from bias_index b hh l d, Ideal.addf_def]
  unfold Cert.Attn.projAt
  refine congrArg (· + bias (ix2 hh d)) (Finset.sum_congr rfl fun k _ => ?_)
  rw [show lidx_main_v5 (idx_main_v6 (ix4 b hh l d)) k = ix3 hh d k from weight_index b hh l d k,
    show ridx_main_v5 (idx_main_v6 (ix4 b hh l d)) k = ix3 b l k from input_index b hh l d k, mul_comm]

/-- The value projection likewise. -/
theorem value_apply (b : Fin 10) (hh : Fin 4) (l : Fin 1000) (d : Fin 1024) :
    val_main_v14 (F := Ideal) x W bias (ix4 b hh l d) = Cert.Attn.projAt x W bias b hh l d := by
  rw [val_main_v14_apply, val_main_v11_apply, val_main_v10_apply, val_main_v13_apply, val_main_v12_apply]
  rw [show idx_main_v12 (idx_main_v13 (ix4 b hh l d)) = ix2 hh d from bias_index b hh l d, Ideal.addf_def]
  unfold Cert.Attn.projAt
  refine congrArg (· + bias (ix2 hh d)) (Finset.sum_congr rfl fun k _ => ?_)
  rw [show lidx_main_v10 (idx_main_v11 (ix4 b hh l d)) k = ix3 hh d k from weight_index b hh l d k,
    show ridx_main_v10 (idx_main_v11 (ix4 b hh l d)) k = ix3 b l k from input_index b hh l d k, mul_comm]

end Projection

/-! ## The scores -/

section Scores

variable (x : (⟨S10x1000x4096, .f32⟩ : BufTy).Contents (Elt Ideal))
  (Wq : (⟨S4x1024x4096, .f32⟩ : BufTy).Contents (Elt Ideal)) (bq : (⟨S4x1024, .f32⟩ : BufTy).Contents (Elt Ideal))
  (Wk : (⟨S4x1024x4096, .f32⟩ : BufTy).Contents (Elt Ideal)) (bk : (⟨S4x1024, .f32⟩ : BufTy).Contents (Elt Ideal))

/-- The score (b, hh, l, m) contracts row (b, hh, l) of the queries … -/
theorem query_row_index (b : Fin 10) (hh : Fin 4) (l m : Fin 1000) (k : Fin 1024) :
    lidx_main_v15 (ix4 b hh l m) k = ix4 b hh l k := by
  funext a; apply Fin.ext; fin_cases a <;> rfl

/-- … against row (b, hh, m) of the keys. -/
theorem key_row_index (b : Fin 10) (hh : Fin 4) (l m : Fin 1000) (k : Fin 1024) :
    ridx_main_v15 (ix4 b hh l m) k = ix4 b hh m k := by
  funext a; apply Fin.ext; fin_cases a <;> rfl

/-- The scaled score at (b, hh, l, m). -/
theorem score_apply (b : Fin 10) (hh : Fin 4) (l m : Fin 1000) :
    val_main_v17 (F := Ideal) x Wq bq Wk bk (ix4 b hh l m)
      = Cert.Attn.score (Cert.Attn.proj x Wq bq) (Cert.Attn.proj x Wk bk) b hh l m := by
  rw [val_main_v17_apply, val_main_v15_apply, val_main_v16_apply, val_main_cst_apply, Ideal.mulf_def, Ideal.ofBits_def]
  unfold Cert.Attn.score
  refine congrArg (· * Ideal.ofBits .f32 0x3D000000#32) (Finset.sum_congr rfl fun k _ => ?_)
  rw [query_row_index, key_row_index, query_apply, key_apply, Cert.Attn.proj_apply, Cert.Attn.proj_apply]

end Scores

/-! ## The mask -/

section Mask

/-- A natural number below 2³¹, as a 32-bit word read signed, is itself. -/
theorem toInt_ofNat_small (k : ℕ) (hk : k < 2147483648) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1]
  split <;> omega

/-- The signed comparison "row + 0 ≥ column" of two numbers below 2³¹ is the bit of "column ≤ row". -/
theorem sge_bit (l m : ℕ) (hl : l < 2147483648) (hm : m < 2147483648) :
    IntOp.cmpi .sge (IntOp.addi (BitVec.ofNat 32 l) 0#32) (BitVec.ofNat 32 m) = if m ≤ l then 1#1 else 0#1 := by
  unfold IntOp.cmpi IntOp.addi
  rw [BitVec.add_zero]
  show BitVec.ofBool ((BitVec.ofNat 32 m).sle (BitVec.ofNat 32 l)) = _
  unfold BitVec.sle
  rw [toInt_ofNat_small l hl, toInt_ofNat_small m hm]
  by_cases h : m ≤ l
  · rw [if_pos h, decide_eq_true (by exact_mod_cast h)]; rfl
  · rw [if_neg h, decide_eq_false (by exact_mod_cast h)]; rfl

/-- The mask repeated over the batch and the heads is read at (l, m). -/
theorem mask_index (b : Fin 10) (hh : Fin 4) (l m : Fin 1000) :
    idx_main_v20 (idx_main_call1_v1 (ix4 b hh l m)) = ix2 l m := by
  funext a; apply Fin.ext; fin_cases a <;> rfl

/-- The mask's bit at (b, hh, l, m) is set exactly when key row m is not after query row l. -/
theorem mask_apply (b : Fin 10) (hh : Fin 4) (l m : Fin 1000) :
    val_main_call1_v1 (F := Ideal) (ix4 b hh l m) = if m.val ≤ l.val then 1#1 else 0#1 := by
  rw [val_main_call1_v1_apply, val_main_v20_apply, mask_index, val_main_v19_apply, val_main_call0_v4_apply,
    val_main_call0_v2_apply, val_main_call0_v0_apply, val_main_call0_v1_apply, val_main_call0_c_apply,
    val_main_call0_v3_apply, val_main_v18_apply, val_main_c_apply, val_main_call0_v5_apply, val_main_call0_c_0_apply]
  show Scalar.select (IntOp.cmpi .sge (IntOp.addi (BitVec.ofNat 32 l.val) 0#32) (BitVec.ofNat 32 m.val)) 1#1 0#1 = _
  rw [sge_bit l.val m.val (by have := l.isLt; omega) (by have := m.isLt; omega)]
  by_cases h : m.val ≤ l.val
  · rw [if_pos h, select_one]
  · rw [if_neg h, select_zero]

end Mask

/-! ## Masked scores, the row maximum, and the result -/

section Attention

variable (x : (⟨S10x1000x4096, .f32⟩ : BufTy).Contents (Elt Ideal))
  (Wq : (⟨S4x1024x4096, .f32⟩ : BufTy).Contents (Elt Ideal)) (bq : (⟨S4x1024, .f32⟩ : BufTy).Contents (Elt Ideal))
  (Wk : (⟨S4x1024x4096, .f32⟩ : BufTy).Contents (Elt Ideal)) (bk : (⟨S4x1024, .f32⟩ : BufTy).Contents (Elt Ideal))
  (Wv : (⟨S4x1024x4096, .f32⟩ : BufTy).Contents (Elt Ideal)) (bv : (⟨S4x1024, .f32⟩ : BufTy).Contents (Elt Ideal))

/-- The masked score at (b, hh, l, m): the score where the mask's bit is set, -∞ elsewhere. -/
theorem masked_apply (b : Fin 10) (hh : Fin 4) (l m : Fin 1000) :
    val_main_v21 (F := Ideal) x Wq bq Wk bk (ix4 b hh l m)
      = Cert.Attn.masked (Cert.Attn.proj x Wq bq) (Cert.Attn.proj x Wk bk) b hh l m := by
  rw [val_main_v21_apply, mask_apply, score_apply, val_main_call1_v2_apply, val_main_call1_v0_apply,
    val_main_cst_0_apply, Ideal.ofBits_def]
  unfold Cert.Attn.masked
  by_cases h : m.val ≤ l.val
  · rw [if_pos h, if_pos h, select_one]
  · rw [if_neg h, if_neg h, select_zero]

/-- The maximum of row (b, hh, l) of the masked scores over its 1000 entries, from -∞. -/
theorem rowMax_apply (b : Fin 10) (hh : Fin 4) (l : Fin 1000) :
    val_main_v22 (F := Ideal) x Wq bq Wk bk (ix3 b hh l)
      = Cert.Attn.rowMax (Cert.Attn.proj x Wq bq) (Cert.Attn.proj x Wk bk) b hh l := by
  unfold val_main_v22
  refine (Cert.AttnOps.host_max_last4_apply (val_main_v21 (F := Ideal) x Wq bq Wk bk) (val_main_cst_1 (F := Ideal))
    reducesTo_S10x4x1000x1000_S10x4x1000_d3 (by decide) h_S_ b hh l).trans ?_
  unfold Cert.Attn.rowMax
  rw [val_main_cst_1_apply, Ideal.ofBits_def]
  exact Finset.fold_congr fun j _ => masked_apply x Wq bq Wk bk b hh l j

/-- The row maximum repeated along the row is read at (b, hh, l). -/
theorem rowMax_index (b : Fin 10) (hh : Fin 4) (l m : Fin 1000) :
    idx_main_v23 (idx_main_v24 (ix4 b hh l m)) = ix3 b hh l := by
  funext a; apply Fin.ext; fin_cases a <;> rfl

/-- The result (b, hh, l, d) contracts row (b, hh, l) of the shifted scores … -/
theorem shifted_row_index (b : Fin 10) (hh : Fin 4) (l : Fin 1000) (d : Fin 1024) (k : Fin 1000) :
    lidx_main_v26 (ix4 b hh l d) k = ix4 b hh l k := by
  funext a; apply Fin.ext; fin_cases a <;> rfl

/-- … against column d of the values of (b, hh). -/
theorem value_column_index (b : Fin 10) (hh : Fin 4) (l : Fin 1000) (d : Fin 1024) (k : Fin 1000) :
    ridx_main_v26 (ix4 b hh l d) k = ix4 b hh k d := by
  funext a; apply Fin.ext; fin_cases a <;> rfl

/-- The product of the shifted scores with the values at (b, hh, l, d). -/
theorem attnAt_apply (b : Fin 10) (hh : Fin 4) (l : Fin 1000) (d : Fin 1024) :
    val_main_v26 (F := Ideal) x Wq bq Wk bk Wv bv (ix4 b hh l d)
      = Cert.Attn.attnAt (Cert.Attn.proj x Wq bq) (Cert.Attn.proj x Wk bk) (Cert.Attn.proj x Wv bv) b hh l d := by
  rw [val_main_v26_apply]
  unfold Cert.Attn.attnAt
  refine Finset.sum_congr rfl fun k _ => ?_
  rw [shifted_row_index, value_column_index, val_main_v25_apply, masked_apply, val_main_v24_apply, val_main_v23_apply,
    rowMax_index, rowMax_apply, value_apply, Cert.Attn.proj_apply, Ideal.subf_def]

/-- Column c of the result is coordinate c mod 1024 of head c / 1024: the heads lie side by side on the last axis. -/
theorem result_index (b : Fin 10) (l : Fin 1000) (c : Fin 4096) :
    idx_main_v27 (idx_main_v28 (ix3 b l c))
      = ix4 b (⟨c.val / 1024, by have := c.isLt; omega⟩ : Fin 4) l (⟨c.val % 1024, Nat.mod_lt _ (by norm_num)⟩ : Fin 1024) := by
  have hb := b.isLt
  have hl := l.isLt
  have hc := c.isLt
  funext a; apply Fin.ext
  fin_cases a
  · show ((b.val * 1000 + l.val) * 4096 + c.val) / 4096000 = b.val
    omega
  · show ((b.val * 1000 + l.val) * 4096 + c.val) / 1024 % 4 = c.val / 1024
    omega
  · show ((b.val * 1000 + l.val) * 4096 + c.val) / 4096 % 1000 = l.val
    omega
  · show ((b.val * 1000 + l.val) * 4096 + c.val) % 1024 = c.val % 1024
    omega

/-- The reference's last stage at (b, l, c) is the specification's result there. -/
theorem out_apply (b : Fin 10) (l : Fin 1000) (c : Fin 4096) :
    val_main_v28 (F := Ideal) x Wq bq Wk bk Wv bv (ix3 b l c) = Cert.Attn.result x Wq bq Wk bk Wv bv (ix3 b l c) := by
  rw [val_main_v28_apply, val_main_v27_apply, result_index, attnAt_apply]
  rfl

end Attention

/-- The reference program's result, as its run states it, is the specification's function of the seven arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v28 (F := Ideal) m c
      = Cert.Attn.result (m ((c.tc : Thread _ Cert.ReferenceIdeal.τ).loc Cert.ReferenceIdeal.main_arg0))
          (m ((c.tc : Thread _ Cert.ReferenceIdeal.τ).loc Cert.ReferenceIdeal.main_arg1))
          (m ((c.tc : Thread _ Cert.ReferenceIdeal.τ).loc Cert.ReferenceIdeal.main_arg2))
          (m ((c.tc : Thread _ Cert.ReferenceIdeal.τ).loc Cert.ReferenceIdeal.main_arg3))
          (m ((c.tc : Thread _ Cert.ReferenceIdeal.τ).loc Cert.ReferenceIdeal.main_arg4))
          (m ((c.tc : Thread _ Cert.ReferenceIdeal.τ).loc Cert.ReferenceIdeal.main_arg5))
          (m ((c.tc : Thread _ Cert.ReferenceIdeal.τ).loc Cert.ReferenceIdeal.main_arg6)) := by
  refine (val_main_v28_eq (F := Ideal) m c).trans (funext fun i => ?_)
  obtain ⟨b, l, j, rfl⟩ : ∃ (b : Fin 10) (l : Fin 1000) (j : Fin 4096), i = ix3 b l j := ⟨i 0, i 1, i 2, eq_ix3 i⟩
  exact out_apply _ _ _ _ _ _ _ b l j

end Cert.RefValue

end
-- ==== Proof.lean ====
/-
  The certificate's five claims for a causal attention without an exponential: per head, three linear projections of
  the input (queries, keys, values), the scaled and causally masked scores with each row's maximum subtracted, and the
  product of those shifted scores with the values, the heads laid side by side.

  The kernel computes it in four pallas_calls — one per projection over a (head, batch, row tile) grid, then the attention
  over a (batch, head, query tile) grid — and the reference in einsums over whole arrays. On the extended reals both are
  the SAME formula (`Cert.Attn.result`, Proof/Spec.lean): the kernel's format changes are the identity, its matrix
  products onto a zero accumulator are the reference's contractions, its lane maximum is the reference's max-reduce, and
  the two differ only in the tiling and in the order of the sums, which + and · on the extended reals do not see. No
  distributive or cancellation law is used, so the finiteness of the inputs is never opened.

  The frames of the two kernel programs are the launch-and-pipeline certificates of Proof/FrameKernel.lean and
  Proof/FrameKernelIdeal.lean; the reference's frame is its run with the result dropped; the idealization rewrote no
  operation, so `preserves` is trivial; and `algebraic` pairs the kernel's run, its result read as that formula of the
  arguments (Proof/KernelRun.lean, Proof/Chain.lean), with the reference's run, its result read as the same formula
  (Proof/RefValue.lean), on arguments that agree.
-/
import proofs.«136977_j46110768890297_2_alg».proof.Defs
import proofs.«136977_j46110768890297_2_alg».proof.Proof.Gen.Kernel
import proofs.«136977_j46110768890297_2_alg».proof.Proof.Gen.KernelIdeal
import proofs.«136977_j46110768890297_2_alg».proof.Proof.Gen.ReferenceIdeal
import proofs.«136977_j46110768890297_2_alg».proof.Proof.Gen.Pre_finite_inputs
import proofs.«136977_j46110768890297_2_alg».proof.Proof.FrameKernel
import proofs.«136977_j46110768890297_2_alg».proof.Proof.FrameKernelIdeal
import proofs.«136977_j46110768890297_2_alg».proof.Proof.KernelRun
import proofs.«136977_j46110768890297_2_alg».proof.Proof.Chain
import proofs.«136977_j46110768890297_2_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.GenP.frame m ρ

theorem frame_pi : Cert.frame_KernelIdeal := fun m ρ _ => Cert.KernelIdeal.GenP.frame m ρ

/-- The reference has no kernel: its frame is its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both programs end with the result array at the one formula of the arguments, which agree. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    rw [(h c).1, Cert.RefValue.result_eq m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
